-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  main_v17

def fn {F : FTy → Type} [FloatOps F] (main_arg0 : FVec F S16384x64 .f32) (main_arg1 : FVec F S16384x64 .f32) (main_arg2 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_cst_4 : FVec F S_ .f32 := constant S_ .f32 0x00000000#32
  let main_v14 : FVec F S64 .f32 := broadcastInDim S64 ![] bcast_S_S64 main_cst_4
  let main_v15 : IVec S64 1 := cmpf .ogt main_arg2 main_v14
  let main_c_5 : IVec S_ 1 := constantI S_ 1 1#1
  fn_part1 (F := F) main_v13 main_v15 main_c_5
-- ==== Kernel.lean ====
abbrev S16384x64 : Shape := ⟨2, ![16384, 64]⟩
abbrev S64 : Shape := ⟨1, ![64]⟩
abbrev S_ : Shape := ⟨0, ![]⟩
abbrev S1x64 : Shape := ⟨2, ![1, 64]⟩
abbrev S16384x1 : Shape := ⟨2, ![16384, 1]⟩
abbrev S1024x64 : Shape := ⟨2, ![1024, 64]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 19
  | .vmem => 9
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S16384x64, .f32⟩
  | .hbm, ⟨7, _⟩ => ⟨S16384x64, .f32⟩
  | .hbm, ⟨8, _⟩ => ⟨S1x64, .f32⟩
  | .hbm, ⟨9, _⟩ => ⟨S16384x64, .f32⟩
  | .hbm, ⟨10, _⟩ => ⟨S16384x64, .f32⟩
  | .hbm, ⟨11, _⟩ => ⟨S16384x64, .bf16⟩
  | .hbm, ⟨12, _⟩ => ⟨S16384x64, .bf16⟩
  | .hbm, ⟨13, _⟩ => ⟨S16384x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x64, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  reduces_S1024x64_S1024 : S1024x64.Reduces [1] S1024
  reducesTo_S16384x1_S_d0_1 : S16384x1.ReducesTo [0, 1] S_
  h_S_ : 0 < S_.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .bf16 = 32 ∨ (Rect.block (s := S16384x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .bf16 = 32 ∨ (Rect.block (s := S16384x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v7) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S16384x64 : Shape := ⟨2, ![16384, 64]⟩
abbrev S64 : Shape := ⟨1, ![64]⟩
abbrev S_ : Shape := ⟨0, ![]⟩
abbrev S1x64 : Shape := ⟨2, ![1, 64]⟩
abbrev S16384x16384 : Shape := ⟨2, ![16384, 16384]⟩
abbrev S16384 : Shape := ⟨1, ![16384]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S64, .f32⟩
  | .hbm, ⟨3, _⟩ => ⟨S_, .f32⟩
  | .hbm, ⟨4, _⟩ => ⟨S16384x64, .f32⟩
  | .hbm, ⟨5, _⟩ => ⟨S16384x64, .f32⟩
  | .hbm, ⟨6, _⟩ => ⟨S64, .f32⟩
  | .hbm, ⟨7, _⟩ => ⟨S1x64, .f32⟩
  | .hbm, ⟨8, _⟩ => ⟨S16384x64, .f32⟩
  | .hbm, ⟨9, _⟩ => ⟨S16384x64, .f32⟩
  | .hbm, ⟨10, _⟩ => ⟨S16384x16384, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x16384, .f32⟩
  | .hbm, ⟨23, _⟩ => ⟨S16384x16384, .f32⟩
  | .hbm, ⟨24, _⟩ => ⟨S16384x16384, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S16384x1, .f32⟩
  | .hbm, ⟨29, _⟩ => ⟨S16384x16384, .f32⟩
  | .hbm, ⟨30, _⟩ => ⟨S16384x16384, .f32⟩
  | .hbm, ⟨31, _⟩ => ⟨S16384, .i32⟩
  | .hbm, ⟨32, _⟩ => ⟨S16384x1, .i32⟩
  | .hbm, ⟨33, _⟩ => ⟨S_, .i32⟩
  | .hbm, ⟨34, _⟩ => ⟨S16384x1, .i32⟩
  | .hbm, ⟨35, _⟩ => ⟨S16384x1, .i1⟩
  | .hbm, ⟨36, _⟩ => ⟨S_, .i32⟩
  | .hbm, ⟨37, _⟩ => ⟨S16384x1, .i32⟩
  | .hbm, ⟨38, _⟩ => ⟨S16384x1, .i32⟩
  | .hbm, ⟨39, _⟩ => ⟨S16384x1, .i32⟩
  | .hbm, ⟨40, _⟩ => ⟨S16384x1x1, .i32⟩
  | .hbm, ⟨41, _⟩ => ⟨S1, .i32⟩
  | .hbm, ⟨42, _⟩ => ⟨S_, .i32⟩
  | .hbm, ⟨43, _⟩ => ⟨S16384x1x1, .i32⟩
  | .hbm, ⟨44, _⟩ => ⟨S16384x1x1, .i1⟩
  | .hbm, ⟨45, _⟩ => ⟨S1x1x1, .i32⟩
  | .hbm, ⟨46, _⟩ => ⟨S16384x1x1, .i32⟩
  | .hbm, ⟨47, _⟩ => ⟨S16384x1x1, .i1⟩
  | .hbm, ⟨48, _⟩ => ⟨S16384x1x1, .i1⟩
  | .hbm, ⟨49, _⟩ => ⟨S_, .i1⟩
  | .hbm, ⟨50, _⟩ => ⟨S16384x1, .i1⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_call0_cst_0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_cst_1 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v14 : Ref sig .tc := ⟨.hbm, 54, rfl⟩
abbrev main_v15 : Ref sig .tc := ⟨.hbm, 55, rfl⟩
abbrev main_cst_1 : Ref sig .tc := ⟨.hbm, 56, rfl⟩
abbrev main_v16 : Ref sig .tc := ⟨.hbm, 57, rfl⟩
abbrev main_cst_2 : Ref sig .tc := ⟨.hbm, 58, rfl⟩
abbrev main_v17 : Ref sig .tc := ⟨.hbm, 59, rfl⟩
abbrev main_v18 : Ref sig .tc := ⟨.hbm, 60, rfl⟩

abbrev nD : Nat := 1
abbrev τ : Topo := Topo.v7x

variable {F : FTy → Type} [FloatOps F]

class Facts₀ : Prop where
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S_S16384 : S_.BroadcastsInDim S16384 (![] : Fin 0 → Fin S16384.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  dot_S16384x64_S16384x64_S16384x16384_1_1_0_0_n_n_wf : DotDims.WF S16384x64 S16384x64 S16384x16384 [1] [1] [0] [0] [] []
  gather_S16384x16384_S16384x1x1_S16384x1_n_1_0_0_1_2_11_wf : GatherDims.WF S16384x16384 S16384x1x1 S16384x1 [] [1] [0] [1] [0] 2 ![1, 1]

variable [Facts₀]

def dot_S16384x64_S16384x64_S16384x16384_1_1_0_0_n_n : DotDims S16384x64 S16384x64 S16384x16384 where
  lhsContracting := [1]
  rhsContracting := [1]
  lhsNonContracting := [0]
  rhsNonContracting := [0]
  lhsBatch := []
  rhsBatch := []
  wf := dot_S16384x64_S16384x64_S16384x16384_1_1_0_0_n_n_wf
def gather_S16384x16384_S16384x1x1_S16384x1_n_1_0_0_1_2_11 : GatherDims S16384x16384 S16384x1x1 S16384x1 where
  offsetDims := []
  collapsedSliceDims := [1]
  operandBatchingDims := [0]
  startIndicesBatchingDims := [0]
  startIndexMap := [1]
  indexVectorDim := 2
  sliceSizes := ![1, 1]
  wf := gather_S16384x16384_S16384x1x1_S16384x1_n_1_0_0_1_2_11_wf

class Facts : Prop extends Facts₀ where

variable [Facts]
-- ==== Proof.Pieces.lean ====
/-
  What each case of the kernel body leaves behind, as values.

  The body has three conditions on the grid point (first column tile, diagonal tile, last column tile) and so six cases
  that occur. In each, the two [1024, 1] scratch columns holding the running maximum and the running sum end at one
  streaming step (the payloads `k0_pay10`, `k0_pay9`) from what they held — the reset values `-inf` and `0` at the
  first column tile, the previous point's contents otherwise —, the third scratch column ends at the diagonal score
  (`k0_pay11`) on the diagonal tile, at its reset value `0` at a first column tile off the diagonal, and is untouched
  otherwise; at the last column tile the output block is `k0_pay1` of the three. For any float values.
-/
import proofs.«137579_j91285234909639_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store and load of the body is through the whole buffer: its offsets are zero. -/
theorem hz : (![0, 0] : Fin 2 → Nat) = fun _ => 0 := funext fun a => by fin_cases a <;> rfl

/-- Case A, the running maximum after the reset: one step from the reset value. -/
theorem sout0_A_0_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : cond0_1 i) (hc2 : ¬cond0_2 i)
    (x0 x1 : Vec F S1024x64 .bf16) :
    sout0_A_0 c i arg2 harg2 arg3 harg3 arg4 harg4 arg5 harg5 arg6 harg6 arg7 harg7 hc0 hc1 hc2 x0 x1 = k0_pay10 x0 x1 k0_pay2 := by
  unfold sout0_A_0
  rw [View.read_writes_eq_canon _ _ _ (scover0_A_0 c i arg2 harg2 arg3 harg3 arg4 harg4 arg5 harg5 arg6 harg6 arg7 harg7 hc0 hc1 hc2 x0 x1)]
  unfold kernelRun0_A
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case A, the running sum after the reset: one step from the reset values. -/
theorem sout0_A_1_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : cond0_1 i) (hc2 : ¬cond0_2 i)
    (x0 x1 : Vec F S1024x64 .bf16) :
    sout0_A_1 c i arg2 harg2 arg3 harg3 arg4 harg4 arg5 harg5 arg6 harg6 arg7 harg7 hc0 hc1 hc2 x0 x1 = k0_pay9 x0 x1 k0_pay2 k0_pay2 k0_pay3 := by
  unfold sout0_A_1
  rw [View.read_writes_eq_canon _ _ _ (scover0_A_1 c i arg2 harg2 arg3 harg3 arg4 harg4 arg5 harg5 arg6 harg6 arg7 harg7 hc0 hc1 hc2 x0 x1)]
  unfold kernelRun0_A
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case A, the diagonal score. -/
theorem sout0_A_2_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : cond0_1 i) (hc2 : ¬cond0_2 i)
    (x0 x1 : Vec F S1024x64 .bf16) :
    sout0_A_2 c i arg2 harg2 arg3 harg3 arg4 harg4 arg5 harg5 arg6 harg6 arg7 harg7 hc0 hc1 hc2 x0 x1 = k0_pay11 x0 x1 := by
  unfold sout0_A_2
  rw [View.read_writes_eq_canon _ _ _ (scover0_A_2 c i arg2 harg2 arg3 harg3 arg4 harg4 arg5 harg5 arg6 harg6 arg7 harg7 hc0 hc1 hc2 x0 x1)]
  unfold kernelRun0_A
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case D, the running maximum after the reset. -/
theorem sout0_D_0_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : ¬cond0_2 i)
    (x0 x1 : Vec F S1024x64 .bf16) :
    sout0_D_0 c i arg2 harg2 arg3 harg3 arg4 harg4 arg5 harg5 arg6 harg6 arg7 harg7 hc0 hc1 hc2 x0 x1 = k0_pay10 x0 x1 k0_pay2 := by
  unfold sout0_D_0
  rw [View.read_writes_eq_canon _ _ _ (scover0_D_0 c i arg2 harg2 arg3 harg3 arg4 harg4 arg5 harg5 arg6 harg6 arg7 harg7 hc0 hc1 hc2 x0 x1)]
  unfold kernelRun0_D
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case D, the running sum after the reset. -/
theorem sout0_D_1_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : ¬cond0_2 i)
    (x0 x1 : Vec F S1024x64 .bf16) :
    sout0_D_1 c i arg2 harg2 arg3 harg3 arg4 harg4 arg5 harg5 arg6 harg6 arg7 harg7 hc0 hc1 hc2 x0 x1 = k0_pay9 x0 x1 k0_pay2 k0_pay2 k0_pay3 := by
  unfold sout0_D_1
  rw [View.read_writes_eq_canon _ _ _ (scover0_D_1 c i arg2 harg2 arg3 harg3 arg4 harg4 arg5 harg5 arg6 harg6 arg7 harg7 hc0 hc1 hc2 x0 x1)]
  unfold kernelRun0_D
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case D, the diagonal score's reset value. -/
theorem sout0_D_2_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : ¬cond0_2 i)
    (x0 x1 : Vec F S1024x64 .bf16) :
    sout0_D_2 c i arg2 harg2 arg3 harg3 arg4 harg4 arg5 harg5 arg6 harg6 arg7 harg7 hc0 hc1 hc2 x0 x1 = k0_pay4 := by
  unfold sout0_D_2
  rw [View.read_writes_eq_canon _ _ _ (scover0_D_2 c i arg2 harg2 arg3 harg3 arg4 harg4 arg5 harg5 arg6 harg6 arg7 harg7 hc0 hc1 hc2 x0 x1)]
  unfold kernelRun0_D
  dsimp only
  sl_unfold_words
  rw [View.canon_cons_unit_zero (S := S1024x1) hz]

/-- Case B, the running maximum: one step from the carried one. -/
theorem sout0_B_0_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : ¬cond0_2 i)
    (x0 x1 : Vec F S1024x64 .bf16) (xs0 xs1 xs2 : Vec F S1024x1 .f32) :
    sout0_B_0 c i arg2 harg2 arg3 harg3 arg4 harg4 arg5 harg5 arg6 harg6 arg7 harg7 hc0 hc1 hc2 x0 x1 xs0 xs1 xs2 = k0_pay10 x0 x1 xs0 := by
  unfold sout0_B_0
  rw [View.read_writes_eq_canon _ _ _ (scover0_B_0 c i arg2 harg2 arg3 harg3 arg4 harg4 arg5 harg5 arg6 harg6 arg7 harg7 hc0 hc1 hc2 x0 x1 xs0 xs1 xs2)]
  unfold kernelRun0_B
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case B, the running sum: one step from the carried ones. -/
theorem sout0_B_1_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : ¬cond0_2 i)
    (x0 x1 : Vec F S1024x64 .bf16) (xs0 xs1 xs2 : Vec F S1024x1 .f32) :
    sout0_B_1 c i arg2 harg2 arg3 harg3 arg4 harg4 arg5 harg5 arg6 harg6 arg7 harg7 hc0 hc1 hc2 x0 x1 xs0 xs1 xs2 = k0_pay9 x0 x1 xs0 xs0 xs1 := by
  unfold sout0_B_1
  rw [View.read_writes_eq_canon _ _ _ (scover0_B_1 c i arg2 harg2 arg3 harg3 arg4 harg4 arg5 harg5 arg6 harg6 arg7 harg7 hc0 hc1 hc2 x0 x1 xs0 xs1 xs2)]
  unfold kernelRun0_B
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case C, the running maximum: one step from the carried one. -/
theorem sout0_C_0_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 x1 : Vec F S1024x64 .bf16) (xs0 xs1 xs2 : Vec F S1024x1 .f32) :
    sout0_C_0 c i arg2 harg2 arg3 harg3 arg4 harg4 arg5 harg5 arg6 harg6 arg7 harg7 hc0 hc1 hc2 x0 x1 xs0 xs1 xs2 = k0_pay10 x0 x1 xs0 := by
  unfold sout0_C_0
  rw [View.read_writes_eq_canon _ _ _ (scover0_C_0 c i arg2 harg2 arg3 harg3 arg4 harg4 arg5 harg5 arg6 harg6 arg7 harg7 hc0 hc1 hc2 x0 x1 xs0 xs1 xs2)]
  unfold kernelRun0_C
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case C, the running sum: one step from the carried ones. -/
theorem sout0_C_1_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 x1 : Vec F S1024x64 .bf16) (xs0 xs1 xs2 : Vec F S1024x1 .f32) :
    sout0_C_1 c i arg2 harg2 arg3 harg3 arg4 harg4 arg5 harg5 arg6 harg6 arg7 harg7 hc0 hc1 hc2 x0 x1 xs0 xs1 xs2 = k0_pay9 x0 x1 xs0 xs0 xs1 := by
  unfold sout0_C_1
  rw [View.read_writes_eq_canon _ _ _ (scover0_C_1 c i arg2 harg2 arg3 harg3 arg4 harg4 arg5 harg5 arg6 harg6 arg7 harg7 hc0 hc1 hc2 x0 x1 xs0 xs1 xs2)]
  unfold kernelRun0_C
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case C, the output block: the carried diagonal score against the new maximum and sum. -/
theorem out0_C_2_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 x1 : Vec F S1024x64 .bf16) (xs0 xs1 xs2 : Vec F S1024x1 .f32) :
    out0_C_2 c i arg2 harg2 arg3 harg3 arg4 harg4 arg5 harg5 arg6 harg6 arg7 harg7 hc0 hc1 hc2 x0 x1 xs0 xs1 xs2 = k0_pay1 xs2 (k0_pay10 x0 x1 xs0) (k0_pay9 x0 x1 xs0 xs0 xs1) := by
  unfold out0_C_2
  rw [View.read_writes_eq_canon _ _ _ (cover0_C_2 c i arg2 harg2 arg3 harg3 arg4 harg4 arg5 harg5 arg6 harg6 arg7 harg7 hc0 hc1 hc2 x0 x1 xs0 xs1 xs2)]
  unfold kernelRun0_C
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case E, the running maximum: one step from the carried one. -/
theorem sout0_E_0_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 x1 : Vec F S1024x64 .bf16) (xs0 xs1 : Vec F S1024x1 .f32) :
    sout0_E_0 c i arg2 harg2 arg3 harg3 arg4 harg4 arg5 harg5 arg6 harg6 arg7 harg7 hc0 hc1 hc2 x0 x1 xs0 xs1 = k0_pay10 x0 x1 xs0 := by
  unfold sout0_E_0
  rw [View.read_writes_eq_canon _ _ _ (scover0_E_0 c i arg2 harg2 arg3 harg3 arg4 harg4 arg5 harg5 arg6 harg6 arg7 harg7 hc0 hc1 hc2 x0 x1 xs0 xs1)]
  unfold kernelRun0_E
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case E, the running sum: one step from the carried ones. -/
theorem sout0_E_1_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 x1 : Vec F S1024x64 .bf16) (xs0 xs1 : Vec F S1024x1 .f32) :
    sout0_E_1 c i arg2 harg2 arg3 harg3 arg4 harg4 arg5 harg5 arg6 harg6 arg7 harg7 hc0 hc1 hc2 x0 x1 xs0 xs1 = k0_pay9 x0 x1 xs0 xs0 xs1 := by
  unfold sout0_E_1
  rw [View.read_writes_eq_canon _ _ _ (scover0_E_1 c i arg2 harg2 arg3 harg3 arg4 harg4 arg5 harg5 arg6 harg6 arg7 harg7 hc0 hc1 hc2 x0 x1 xs0 xs1)]
  unfold kernelRun0_E
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case E, the diagonal score. -/
theorem sout0_E_2_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 x1 : Vec F S1024x64 .bf16) (xs0 xs1 : Vec F S1024x1 .f32) :
    sout0_E_2 c i arg2 harg2 arg3 harg3 arg4 harg4 arg5 harg5 arg6 harg6 arg7 harg7 hc0 hc1 hc2 x0 x1 xs0 xs1 = k0_pay11 x0 x1 := by
  unfold sout0_E_2
  rw [View.read_writes_eq_canon _ _ _ (scover0_E_2 c i arg2 harg2 arg3 harg3 arg4 harg4 arg5 harg5 arg6 harg6 arg7 harg7 hc0 hc1 hc2 x0 x1 xs0 xs1)]
  unfold kernelRun0_E
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case F, the running maximum: one step from the carried one. -/
theorem sout0_F_0_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : cond0_2 i)
    (x0 x1 : Vec F S1024x64 .bf16) (xs0 xs1 : Vec F S1024x1 .f32) :
    sout0_F_0 c i arg2 harg2 arg3 harg3 arg4 harg4 arg5 harg5 arg6 harg6 arg7 harg7 hc0 hc1 hc2 x0 x1 xs0 xs1 = k0_pay10 x0 x1 xs0 := by
  unfold sout0_F_0
  rw [View.read_writes_eq_canon _ _ _ (scover0_F_0 c i arg2 harg2 arg3 harg3 arg4 harg4 arg5 harg5 arg6 harg6 arg7 harg7 hc0 hc1 hc2 x0 x1 xs0 xs1)]
  unfold kernelRun0_F
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case F, the running sum: one step from the carried ones. -/
theorem sout0_F_1_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : cond0_2 i)
    (x0 x1 : Vec F S1024x64 .bf16) (xs0 xs1 : Vec F S1024x1 .f32) :
    sout0_F_1 c i arg2 harg2 arg3 harg3 arg4 harg4 arg5 harg5 arg6 harg6 arg7 harg7 hc0 hc1 hc2 x0 x1 xs0 xs1 = k0_pay9 x0 x1 xs0 xs0 xs1 := by
  unfold sout0_F_1
  rw [View.read_writes_eq_canon _ _ _ (scover0_F_1 c i arg2 harg2 arg3 harg3 arg4 harg4 arg5 harg5 arg6 harg6 arg7 harg7 hc0 hc1 hc2 x0 x1 xs0 xs1)]
  unfold kernelRun0_F
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case F, the diagonal score. -/
theorem sout0_F_2_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : cond0_2 i)
    (x0 x1 : Vec F S1024x64 .bf16) (xs0 xs1 : Vec F S1024x1 .f32) :
    sout0_F_2 c i arg2 harg2 arg3 harg3 arg4 harg4 arg5 harg5 arg6 harg6 arg7 harg7 hc0 hc1 hc2 x0 x1 xs0 xs1 = k0_pay11 x0 x1 := by
  unfold sout0_F_2
  rw [View.read_writes_eq_canon _ _ _ (scover0_F_2 c i arg2 harg2 arg3 harg3 arg4 harg4 arg5 harg5 arg6 harg6 arg7 harg7 hc0 hc1 hc2 x0 x1 xs0 xs1)]
  unfold kernelRun0_F
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

/-- Case F, the output block: the new diagonal score against the new maximum and sum. -/
theorem out0_F_2_eq (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : cond0_2 i)
    (x0 x1 : Vec F S1024x64 .bf16) (xs0 xs1 : Vec F S1024x1 .f32) :
    out0_F_2 c i arg2 harg2 arg3 harg3 arg4 harg4 arg5 harg5 arg6 harg6 arg7 harg7 hc0 hc1 hc2 x0 x1 xs0 xs1 = k0_pay1 (k0_pay11 x0 x1) (k0_pay10 x0 x1 xs0) (k0_pay9 x0 x1 xs0 xs0 xs1) := by
  unfold out0_F_2
  rw [View.read_writes_eq_canon _ _ _ (cover0_F_2 c i arg2 harg2 arg3 harg3 arg4 harg4 arg5 harg5 arg6 harg6 arg7 harg7 hc0 hc1 hc2 x0 x1 xs0 xs1)]
  unfold kernelRun0_F
  dsimp only
  sl_unfold_words
  rw [View.canon_cons_unit_zero (S := S1024x1) hz]
  simp only [View.readAt_eq_ld, harg2.read_unread, harg3.read_unread, harg5.read_unread, harg6.read_unread, harg7.read_unread,
    View.ld_unit_zero (S := S1024x64) hz, View.ld_unit_zero (S := S1024x1) hz, View.readCov_unit_zero (S := S1024x1) _ hz]

end Cert.KernelIdeal.Pieces

end
-- ==== Proof.LibLseSpec.lean ====
/-
  The negative log-likelihood of one row of scores, `d - log (sum_i exp (g i))` for a picked score `d`,
  as two programs spell it on the extended reals.

  THE STREAMING FORM visits the columns tile by tile and keeps a running maximum `m` and a running sum `l` of
  exponentials taken relative to that maximum: a tile `f` moves `(m, l)` to `(m', exp (m - m') * l + sum_c exp (f c - m'))`
  with `m' = max m (max_c f c)`, starting from `(-inf, 0)`; the row's value is then `d - (m + log l)`.

  THE TWO-PASS FORM first subtracts the row's maximum `M`, then takes a log-softmax of the shifted row, which
  subtracts the shifted row's own maximum `Z` once more before exponentiating:
  `((d - M) - Z) - log (0 + sum_i exp ((g i - M) - Z))`.

  Only the definitions are here; that the two agree on real scores is proved in LibOnlineLse.
-/
import Idealize.ShloMosaic.PureOps.Ideal

noncomputable section

open scoped BigOperators

namespace Lse

open Idealize.ShloMosaic

/-- The maximum of a finite family of extended reals, folded from `-inf` (so the empty family has maximum `-inf`). -/
def foldMax {κ : Type} [Fintype κ] (f : κ → EReal) : EReal := (Finset.univ : Finset κ).fold max ⊥ f

/-- One tile of the streaming recurrence: the new running maximum, and the old sum rescaled to it plus the tile's
    exponentials relative to it. -/
def step {κ : Type} [Fintype κ] (st : EReal × EReal) (f : κ → EReal) : EReal × EReal :=
  (max st.1 (foldMax f),
    Ideal.exp (st.1 - max st.1 (foldMax f)) * st.2 + ∑ c, Ideal.exp (f c - max st.1 (foldMax f)))

/-- The running maximum and running sum after the first `n` tiles `f 0, …, f (n - 1)`, from `(-inf, 0)`. -/
def state {κ : Type} [Fintype κ] (f : ℕ → κ → EReal) : ℕ → EReal × EReal
  | 0 => (⊥, 0)
  | n + 1 => step (state f n) (f n)

/-- The streaming form's value of a row: the picked score minus (running maximum plus log of the running sum). -/
def streamed (d : EReal) (st : EReal × EReal) : EReal := d - (st.1 + Ideal.log st.2)

/-- The two-pass form's value of a row with scores `g` and picked score `d`. -/
def twoPass {ι : Type} [Fintype ι] (g : ι → EReal) (d : EReal) : EReal :=
  ((d - foldMax g) - max ⊥ (foldMax fun i => g i - foldMax g))
    - Ideal.log (0 + ∑ i, Ideal.exp ((g i - foldMax g) - max ⊥ (foldMax fun i => g i - foldMax g)))

end Lse

end
-- ==== Proof.LibColumnReads.lean ====
/-
  Column and row reads of small layout operations, over arbitrary extents.

  A column `[a, 1]` broadcast along the second axis reads, at `(p, c)`, the column's entry `p`; a vector of length
  `a` reshaped to a column `[a, 1]` reads, at `(p, 0)`, the vector's entry `p`; a vector made a column by the host's
  broadcast along axis 0 reads the same; and a `[a, 1]` column broadcast by the host to `[a, b]` reads the column's
  entry of the same row.
-/
import Idealize.ShloMosaic.Lib.Pipeline.Value
import Idealize.ShloMosaic.Lib.ValueIdx
import Idealize.ShloMosaic.Lib.ValueLayout

noncomputable section

namespace Cert.Lib.ColumnReads

open Idealize.ShloMosaic Idealize.ShloMosaic.ValueIdx

variable {α : Type}

/-- A `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along both axes reads, at `(p, c)`, the column at row `p`. -/
theorem col_broadcastInDim_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun d => by
    match d with
    | ⟨0, _⟩ =>
      show p.val = if a = 1 then 0 else p.val
      split
      · have := p.isLt; omega
      · rfl
    | ⟨1, _⟩ => rfl

/-- A vector made a `[a, 1]` column by the host's broadcast along axis 0 reads, at `(p, 0)`, the vector at `p`. -/
theorem vec_as_col_apply {a : ℕ} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) :=
  broadcastInDim_apply _ h v _ _ fun d => by
    match d with
    | ⟨0, _⟩ =>
      show p.val = if a = 1 then 0 else p.val
      split
      · have := p.isLt; omega
      · rfl

/-- A vector reshaped to a `[a, 1]` column reads, at `(p, 0)`, the vector at `p`. -/
theorem reshape_col_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ (ix1 p) (by
    rw [Shape.rowMajor_val_one, Shape.rowMajor_val_two]
    show p.val = p.val * 1 + 0
    omega)

end Cert.Lib.ColumnReads

end
-- ==== Proof.PayloadAt.lean ====
/-
  The kernel body's arithmetic at one element, on the extended reals.

  One grid point holds a block `x0` of 1024 query rows and a block `x1` of 1024 target rows (64 features each). The
  body forms the 1024 x 1024 tile of scores `tileScore x0 x1 r c = sum_k x0 (r, k) * x1 (c, k)` and, for each row `r`
  of the tile, moves the running maximum `m r` and the running sum `l r` kept in two [1024, 1] scratch columns by one
  step of the streaming log-sum-exp (`Lse.step`); on the diagonal tile it also records the row's own score
  `sum_k x0 (r, k) * x1 (r, k)`; at the last tile it writes `diag - (m + log l)`.
  Each lemma reads one stored payload at the element `(r, 0)` of its column.
-/
import proofs.«137579_j91285234909639_2_alg».proof.Proof.Gen.KernelIdeal.Skeleton
import proofs.«137579_j91285234909639_2_alg».proof.Proof.LibLseSpec
import proofs.«137579_j91285234909639_2_alg».proof.Proof.LibColumnReads
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx Cert.Lib.ColumnReads

/-- The score of row `r` of the query block against row `c` of the target block. -/
def tileScore (x0 x1 : Vec Ideal S1024x64 .bf16) (r c : Fin 1024) : EReal := ∑ k : Fin 64, x0 (ix2 r k) * x1 (ix2 c k)

/-- The `-inf` word denotes the bottom of the extended reals. -/
theorem ofBits_neg_inf : Ideal.ofBits .f32 0xFF800000#32 = ⊥ := by simp [Ideal.ofBits, Ideal.ieee]

/-- The exponential and the logarithm of a vector are taken element by element. -/
theorem exp_at {s : Shape} (v : FVec Ideal s .f32) (i : s.Idx) : exp v i = Ideal.exp (v i) := rfl
theorem log_at {s : Shape} (v : FVec Ideal s .f32) (i : s.Idx) : log v i = Ideal.log (v i) := rfl

/-- The matrix unit's product of the query block with the target block, both contracted over their 64 features, into a
    zero accumulator: entry `(r, c)` is the score of row `r` against row `c`. -/
theorem pay7_apply (x0 x1 : Vec Ideal S1024x64 .bf16) (r c : Fin 1024) :
    k0_pay7 (F := Ideal) x0 x1 (ix2 r c) = tileScore x0 x1 r c := by
  unfold k0_pay7 k0_pay5 k0_pay6
  simp only [shapeCast_self, matmul]
  rw [Ideal.matmul_constant_zero_apply,
    ← Equiv.sum_comp (contrEquiv1 dot_S1024x64_S1024x64_S1024x1024_1_1_0_0_n_n 64 rfl rfl).symm]
  unfold tileScore
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 r c)
      ((contrEquiv1 dot_S1024x64_S1024x64_S1024x1024_1_1_0_0_n_n 64 rfl rfl).symm k) = ix2 r k :=
    funext fun a => Fin.ext (by
      match a with
      | ⟨0, _⟩ =>
        show (dot_S1024x64_S1024x64_S1024x1024_1_1_0_0_n_n.lhsIdx (ix2 r c) _ 0).val = r.val
        unfold DotDims.lhsIdx
        rw [dif_neg (show ¬(0 : Fin S1024x64.rank) ∈ dot_S1024x64_S1024x64_S1024x1024_1_1_0_0_n_n.lhsBatch by decide),
          dif_pos (show (0 : Fin S1024x64.rank) ∈ dot_S1024x64_S1024x64_S1024x1024_1_1_0_0_n_n.lhsNonContracting by decide)]
        rfl
      | ⟨1, _⟩ => exact (dot_S1024x64_S1024x64_S1024x1024_1_1_0_0_n_n.lhsIdx_val_of_single rfl _ _).trans hk)
  have er : dot_S1024x64_S1024x64_S1024x1024_1_1_0_0_n_n.rhsIdx (ix2 r c)
      ((contrEquiv1 dot_S1024x64_S1024x64_S1024x1024_1_1_0_0_n_n 64 rfl rfl).symm k) = ix2 c k :=
    funext fun a => Fin.ext (by
      match a with
      | ⟨0, _⟩ =>
        show (dot_S1024x64_S1024x64_S1024x1024_1_1_0_0_n_n.rhsIdx (ix2 r c) _ 0).val = c.val
        unfold DotDims.rhsIdx
        rw [dif_neg (show ¬(0 : Fin S1024x64.rank) ∈ dot_S1024x64_S1024x64_S1024x1024_1_1_0_0_n_n.rhsBatch by decide),
          dif_pos (show (0 : Fin S1024x64.rank) ∈ dot_S1024x64_S1024x64_S1024x1024_1_1_0_0_n_n.rhsNonContracting by decide)]
        rfl
      | ⟨1, _⟩ => exact (dot_S1024x64_S1024x64_S1024x1024_1_1_0_0_n_n.rhsIdx_val_of_single rfl _ _).trans hk)
  rw [el, er]

/-- A row maximum of a [1024, 1024] array from `-inf`, reshaped to a column: at `(r, 0)` the folded maximum of row `r`. -/
theorem rowMax_col (src : FVec Ideal S1024x1024 .f32) (h : S1024x1024.Reduces [1] S1024) (hφ : FKind.Formats .f32)
    (hacc : (0xFF800000#32 : BitVec 32) = FKind.maximumf.neutral .f32 hφ) (hc : S1024.ShapeCasts S1024x1) (r : Fin 1024) :
    shapeCast S1024x1 (multiReduction .maximumf [1] S1024 src 0xFF800000#32 h hφ hacc) hc (ix2 r (0 : Fin 1))
      = Lse.foldMax fun c : Fin 1024 => src (ix2 r c) := by
  refine (reshape_col_apply _ hc r).trans ?_
  refine (Ideal.multiReduction_maximumf_single src 0xFF800000#32 h hφ hacc (ix1 r)).trans ?_
  unfold Lse.foldMax
  show Finset.fold max (Ideal.ofBits .f32 0xFF800000#32) _ _ = _
  rw [ofBits_neg_inf]
  refine congrArg (Finset.fold max ⊥ · Finset.univ) (funext fun c => ?_)
  exact congrArg src (funext fun a => Fin.ext (by match a with | ⟨0, _⟩ => rfl | ⟨1, _⟩ => rfl))

/-- A row sum of a [1024, 1024] array, reshaped to a column: at `(r, 0)` the sum of row `r`. -/
theorem rowSum_col (src : FVec Ideal S1024x1024 .f32) (h : S1024x1024.Reduces [1] S1024) (hφ : FKind.Formats .f32)
    (hacc : (0x00000000#32 : BitVec 32) = FKind.add.neutral .f32 hφ) (hc : S1024.ShapeCasts S1024x1) (r : Fin 1024) :
    shapeCast S1024x1 (multiReduction .add [1] S1024 src 0x00000000#32 h hφ hacc) hc (ix2 r (0 : Fin 1))
      = ∑ c : Fin 1024, src (ix2 r c) := by
  refine (reshape_col_apply _ hc r).trans ?_
  refine (Ideal.multiReduction_add_single src 0x00000000#32 h hφ hacc (ix1 r)).trans ?_
  refine Finset.sum_congr rfl fun c _ => ?_
  exact congrArg src (funext fun a => Fin.ext (by match a with | ⟨0, _⟩ => rfl | ⟨1, _⟩ => rfl))

/-- A row sum of a [1024, 64] array, reshaped to a column: at `(r, 0)` the sum of row `r`. -/
theorem rowSum64_col (src : FVec Ideal S1024x64 .f32) (h : S1024x64.Reduces [1] S1024) (hφ : FKind.Formats .f32)
    (hacc : (0x00000000#32 : BitVec 32) = FKind.add.neutral .f32 hφ) (hc : S1024.ShapeCasts S1024x1) (r : Fin 1024) :
    shapeCast S1024x1 (multiReduction .add [1] S1024 src 0x00000000#32 h hφ hacc) hc (ix2 r (0 : Fin 1))
      = ∑ k : Fin 64, src (ix2 r k) := by
  refine (reshape_col_apply _ hc r).trans ?_
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

/-- The new running maximum of row `r`: the old one against the tile's row maximum. -/
theorem pay8_apply (x0 x1 : Vec Ideal S1024x64 .bf16) (v10 : Vec Ideal S1024x1 .f32) (r : Fin 1024) :
    k0_pay8 (F := Ideal) x0 x1 v10 (ix2 r (0 : Fin 1)) = max (v10 (ix2 r (0 : Fin 1))) (Lse.foldMax (tileScore x0 x1 r)) := by
  unfold k0_pay8
  refine (maximumf_apply _ _ _).trans (congrArg (max (v10 (ix2 r (0 : Fin 1)))) ?_)
  refine (rowMax_col _ _ _ _ _ r).trans ?_
  exact congrArg Lse.foldMax (funext fun c => pay7_apply x0 x1 r c)

/-- The stored running maximum is that value (the store's reshape is the identity). -/
theorem pay10_eq (x0 x1 : Vec Ideal S1024x64 .bf16) (v10 : Vec Ideal S1024x1 .f32) :
    k0_pay10 (F := Ideal) x0 x1 v10 = k0_pay8 (F := Ideal) x0 x1 v10 := by
  unfold k0_pay10
  exact shapeCast_self _ _

/-- The new running sum of row `r`: the old sum rescaled from the old maximum to the new one, plus the tile's
    exponentials relative to the new maximum. -/
theorem pay9_apply (x0 x1 : Vec Ideal S1024x64 .bf16) (v10 v12 v18 : Vec Ideal S1024x1 .f32) (r : Fin 1024) :
    k0_pay9 (F := Ideal) x0 x1 v10 v12 v18 (ix2 r (0 : Fin 1))
      = Ideal.exp (v12 (ix2 r (0 : Fin 1)) - k0_pay8 (F := Ideal) x0 x1 v10 (ix2 r (0 : Fin 1))) * v18 (ix2 r (0 : Fin 1))
        + ∑ c : Fin 1024, Ideal.exp (tileScore x0 x1 r c - k0_pay8 (F := Ideal) x0 x1 v10 (ix2 r (0 : Fin 1))) := by
  unfold k0_pay9
  rw [shapeCast_self]
  refine (addf_apply _ _ _).trans ?_
  refine congrArg₂ (· + ·) rfl ?_
  refine (rowSum_col _ _ _ _ _ r).trans ?_
  refine Finset.sum_congr rfl fun c _ => ?_
  refine (exp_at _ _).trans (congrArg Ideal.exp ?_)
  refine (subf_apply _ _ _).trans ?_
  rw [pay7_apply, broadcastTo_a1_ab_apply]

/-- The diagonal score of row `r` of the diagonal tile: the dot product of the two blocks' rows `r`. -/
theorem pay11_apply (x0 x1 : Vec Ideal S1024x64 .bf16) (r : Fin 1024) :
    k0_pay11 (F := Ideal) x0 x1 (ix2 r (0 : Fin 1)) = tileScore x0 x1 r r := by
  unfold k0_pay11 k0_pay5 k0_pay6
  simp only [shapeCast_self]
  refine (rowSum64_col _ _ _ _ _ r).trans ?_
  rfl

/-- The output row: the diagonal score minus (running maximum plus log of the running sum). -/
theorem pay1_apply (v35 v36 v37 : Vec Ideal S1024x1 .f32) (i : S1024x1.Idx) :
    k0_pay1 (F := Ideal) v35 v36 v37 i = Lse.streamed (v35 i) (v36 i, v37 i) := rfl

/-- The reset values: `-inf` for the running maximum, zero for the running sum and for the diagonal score. -/
theorem pay2_apply (i : S1024x1.Idx) : k0_pay2 (F := Ideal) i = ⊥ := by
  unfold k0_pay2
  rw [shapeCast_self]
  exact ofBits_neg_inf
theorem pay3_apply (i : S1024x1.Idx) : k0_pay3 (F := Ideal) i = 0 := by
  unfold k0_pay3
  rw [shapeCast_self]
  exact Ideal.ofBits_zero_f32
theorem pay4_apply (i : S1024x1.Idx) : k0_pay4 (F := Ideal) i = 0 := by
  unfold k0_pay4
  rw [shapeCast_self]
  exact Ideal.ofBits_zero_f32

/-- One body step on row `r`: the stored maximum and sum are one streaming step from the loaded ones. -/
theorem step_apply (x0 x1 : Vec Ideal S1024x64 .bf16) (m l : Vec Ideal S1024x1 .f32) (r : Fin 1024) :
    (k0_pay10 (F := Ideal) x0 x1 m (ix2 r (0 : Fin 1)), k0_pay9 (F := Ideal) x0 x1 m m l (ix2 r (0 : Fin 1)))
      = Lse.step (m (ix2 r (0 : Fin 1)), l (ix2 r (0 : Fin 1))) (tileScore x0 x1 r) := by
  rw [pay10_eq, pay9_apply, pay8_apply]
  rfl

end Cert.KernelIdeal.PayloadAt

end
-- ==== Proof.LossSpec.lean ====
/-
  The contrastive loss both programs compute, as functions of the three argument arrays over the extended reals:
  logits [16384, 64], targets [16384, 64] and noise probabilities [64].

  A QUERY row is the logits row (scaled by the temperature 1) minus the log noise probabilities; the SCORE of row `p`
  against column `col` is the dot product of query row `p` with target row `col`; the label of row `p` is column `p`;
  the loss is minus the mean over the rows of `score p p - logsumexp_col (score p col)`.
  One program divides by the temperature and subtracts the log (queryDiv), the other multiplies by its reciprocal and
  adds the negated log (queryMul); one takes the log-sum-exp in two passes over the whole row (Lse.twoPass), the other
  streams over 16 tiles of 1024 columns (Lse.state, Lse.streamed).
-/
import Idealize.ShloMosaic.Lib.ValueIdx
import proofs.«137579_j91285234909639_2_alg».proof.Proof.LibLseSpec

noncomputable section

open scoped BigOperators

namespace Cert.LossSpec

open Idealize.ShloMosaic Idealize.ShloMosaic.ValueIdx

/-- The shape of the logits and of the targets. -/
abbrev SX : Shape := ⟨2, ![16384, 64]⟩
/-- The shape of the noise probabilities. -/
abbrev SN : Shape := ⟨1, ![64]⟩

/-- The score of query row `p` against target row `col`: their dot product over the 64 features. -/
def score (Q T : SX.Idx → EReal) (p col : Fin 16384) : EReal := ∑ k : Fin 64, Q (ix2 p k) * T (ix2 col k)

/-- The query as a quotient and a difference: logits / 1 - log noise. -/
def queryDiv (x0 : SX.Idx → EReal) (x2 : SN.Idx → EReal) : SX.Idx → EReal :=
  fun i => Ideal.div (x0 i) (Ideal.ofBits .f32 0x3F800000#32) - Ideal.log (x2 (ix1 (i 1)))

/-- The query as a product and a sum: logits * 1 + (-(log noise)). -/
def queryMul (x0 : SX.Idx → EReal) (x2 : SN.Idx → EReal) : SX.Idx → EReal :=
  fun i => x0 i * Ideal.ofBits .f32 0x3F800000#32 + -(Ideal.log (x2 (ix1 (i 1))))

/-- Minus the mean of the 16384 rows' values: the sum from the zero word, divided by the word of 16384.0, negated. -/
def negMean (v : Fin 16384 → EReal) : EReal :=
  -(Ideal.div (Ideal.ofBits .f32 0x00000000#32 + ∑ p, v p) (Ideal.ofBits .f32 0x46800000#32))

/-- Column `c` of column tile `j` (tiles of 1024 columns; `1024 * j + c` for the 16 tiles `j < 16`). -/
def colAt (j : ℕ) (c : Fin 1024) : Fin 16384 := ⟨(1024 * j + c.val) % 16384, Nat.mod_lt _ (by norm_num)⟩

/-- The loss in the two-pass spelling over the quotient query. -/
def lossTwoPass (x0 x1 : SX.Idx → EReal) (x2 : SN.Idx → EReal) : EReal :=
  negMean fun p => Lse.twoPass (fun col => score (queryDiv x0 x2) x1 p col) (score (queryDiv x0 x2) x1 p p)

/-- The loss in the streaming spelling over the product query: 16 tiles of 1024 columns per row. -/
def lossStreamed (x0 x1 : SX.Idx → EReal) (x2 : SN.Idx → EReal) : EReal :=
  negMean fun p => Lse.streamed (score (queryMul x0 x2) x1 p p)
    (Lse.state (fun j c => score (queryMul x0 x2) x1 p (colAt j c)) 16)

end Cert.LossSpec

end
-- ==== Proof.Blocks.lean ====
/-
  What the kernel's input blocks hold, in terms of the argument arrays.

  Before the region the host forms the query array `logits * 1 + (-(log noise))` (row-broadcast) and passes the targets
  through a change of format, which is the identity on the extended reals. Grid point `t` of the 16 x 16 grid is row
  tile `t / 16` and column tile `t % 16`; its query block is rows `1024 * (t / 16) + r` of the query array, its target
  block rows `1024 * (t % 16) + c` of the targets. So the score tile of the point is the score matrix's entries at
  those rows and columns.
-/
import proofs.«137579_j91285234909639_2_alg».proof.Proof.Gen.KernelIdeal.Frame
import proofs.«137579_j91285234909639_2_alg».proof.Proof.LossSpec
import proofs.«137579_j91285234909639_2_alg».proof.Proof.PayloadAt
import Idealize.ShloMosaic.Lib.Pipeline.Value
import Idealize.ShloMosaic.Lib.StableHlo.Run
import Idealize.ShloMosaic.Lib.ValueIdx

set_option maxRecDepth 16384

noncomputable section

open scoped BigOperators

open Idealize.ShloMosaic Idealize.ShloMosaic.TcCoe Idealize.SL.Sem

namespace Cert.KernelIdeal.Blocks

open Cert.KernelIdeal Cert.KernelIdeal.Gen Idealize.ShloMosaic.ValueIdx Idealize.ShloMosaic.StableHlo Cert.LossSpec
open Cert.KernelIdeal.PayloadAt (tileScore)

variable (m : (ℓ : Loc nD τ sig) → Buf (Elt Ideal) ℓ)

/-- The query array of the loss, from the launch contents of core `c`. -/
abbrev Q (c : Dev nD) : SX.Idx → EReal :=
  queryMul (m ((c : Thread nD τ).loc main_arg0)) (m ((c : Thread nD τ).loc main_arg2))
/-- The target array, from the launch contents of core `c`. -/
abbrev T (c : Dev nD) : SX.Idx → EReal := m ((c : Thread nD τ).loc main_arg1)

/-- The 16 x 16 grid has 256 points. -/
theorem lt_256 (t : Fin cfg0.N) : t.val < 256 := lt_of_lt_of_eq t.isLt N_0

/-- The index maps: the query and the output block follow the row tile, the target block the column tile. -/
theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- The host's query arithmetic at an entry: the product with the splat of 1, plus the row-broadcast negated log. -/
theorem query_apply (x0 : FVec Ideal S16384x64 .f32) (x2 : FVec Ideal S64 .f32) (p : Fin 16384) (k : Fin 64) :
    truncf .bf16 (addf (mulf x0 (broadcastInDim S16384x64 ![] bcast_S_S16384x64 (constant (F := Ideal) S_ .f32 0x3F800000#32)))
        (broadcastInDim S16384x64 ![0, 1] bcast_S1x64_S16384x64_0_1
          (broadcastInDim S1x64 ![1] bcast_S64_S1x64_1 (Host.negf (F := Ideal) (Host.log (F := Ideal) x2)))))
      bitsLt_bf16_f32 (ix2 p k) = queryMul x0 x2 (ix2 p k) := by
  show x0 (ix2 p k) * broadcastInDim S16384x64 ![] bcast_S_S16384x64 (constant (F := Ideal) S_ .f32 0x3F800000#32) (ix2 p k)
      + broadcastInDim S16384x64 ![0, 1] bcast_S1x64_S16384x64_0_1
          (broadcastInDim S1x64 ![1] bcast_S64_S1x64_1 (Host.negf (F := Ideal) (Host.log (F := Ideal) x2))) (ix2 p k) = _
  rw [broadcastInDim_apply _ bcast_S_S16384x64 _ (ix2 p k) (fun a => a.elim0) (fun a => a.elim0),
    broadcastInDim_apply _ bcast_S1x64_S16384x64_0_1 _ (ix2 p k) (ix2 (0 : Fin 1) k) (fun d => by
      match d with
      | ⟨0, _⟩ => rfl
      | ⟨1, _⟩ => rfl),
    broadcastInDim_apply _ bcast_S64_S1x64_1 _ (ix2 (0 : Fin 1) k) (ix1 k) (fun d => by
      match d with
      | ⟨0, _⟩ => rfl)]
  rfl

/-- The query array as the region finds it: the host's product, row broadcast and sum of the launch contents. -/
theorem V7_apply (c : Dev nD) (p : Fin 16384) (k : Fin 64) :
    (V m c main_v7 : S16384x64.Idx → EReal) (ix2 p k) = Q m c (ix2 p k) := by
  have e : @Eq (FVec Ideal S16384x64 .bf16) (V m c main_v7)
      (truncf .bf16 (addf (mulf (show FVec Ideal S16384x64 .f32 from m ((c : Thread nD τ).loc main_arg0))
            (broadcastInDim S16384x64 ![] bcast_S_S16384x64 (constant (F := Ideal) S_ .f32 0x3F800000#32)))
          (broadcastInDim S16384x64 ![0, 1] bcast_S1x64_S16384x64_0_1
            (broadcastInDim S1x64 ![1] bcast_S64_S1x64_1
              (Host.negf (F := Ideal) (Host.log (F := Ideal) (show FVec Ideal S64 .f32 from m ((c : Thread nD τ).loc main_arg2)))))))
        bitsLt_bf16_f32) := by
    show StableHlo.after hostOps0 (fun b => m (c, b)) (Proc.devRef .tc main_v7) = _
    after_results
  rw [e]
  exact query_apply _ _ p k

/-- The target array as the region finds it is the argument (a change of format is the identity). -/
theorem V8_apply (c : Dev nD) (i : S16384x64.Idx) :
    (V m c main_v8 : S16384x64.Idx → EReal) i = T m c i := by
  have e : @Eq (FVec Ideal S16384x64 .bf16) (V m c main_v8)
      (truncf .bf16 (show FVec Ideal S16384x64 .f32 from m ((c : Thread nD τ).loc main_arg1)) bitsLt_bf16_f32) := by
    show StableHlo.after hostOps0 (fun b => m (c, b)) (Proc.devRef .tc main_v8) = _
    after_results
  rw [e]
  rfl

/-- The query block of point `t` holds rows `1024 * (t / 16) + r` of the query array. -/
theorem blk0_apply (c : Dev nD) (t : Fin cfg0.N) (r : Fin 1024) (k : Fin 64) :
    (iblk m c 0 t : Vec Ideal S1024x64 .bf16) (ix2 r k) = Q m c (ix2 (colAt (t.val / 16) r) k) := by
  have hi := idx0 t
  have hN := lt_256 t
  rw [← V7_apply]
  unfold iblk
  rw [View.read_apply]
  show V m c main_v7 _ = V m c main_v7 _
  refine congrArg (V m c main_v7) (funext fun a => Fin.ext ?_)
  match a with
  | ⟨0, _⟩ =>
    show win0_0.index t 0 * 1024 + 1 * r.val = (1024 * (t.val / 16) + r.val) % 16384
    rw [hi.1]; have := r.isLt; omega
  | ⟨1, _⟩ =>
    show win0_0.index t 1 * 64 + 1 * k.val = k.val
    rw [hi.2]; omega

/-- The target block of point `t` holds rows `1024 * (t % 16) + c` of the targets. -/
theorem blk1_apply (c : Dev nD) (t : Fin cfg0.N) (cc : Fin 1024) (k : Fin 64) :
    (iblk m c 1 t : Vec Ideal S1024x64 .bf16) (ix2 cc k) = T m c (ix2 (colAt (t.val % 16) cc) k) := by
  have hi := idx1 t
  have hN := lt_256 t
  rw [← V8_apply]
  unfold iblk
  rw [View.read_apply]
  show V m c main_v8 _ = V m c main_v8 _
  refine congrArg (V m c main_v8) (funext fun a => Fin.ext ?_)
  match a with
  | ⟨0, _⟩ =>
    show win0_1.index t 0 * 1024 + 1 * cc.val = (1024 * (t.val % 16) + cc.val) % 16384
    rw [hi.1]; have := cc.isLt; omega
  | ⟨1, _⟩ =>
    show win0_1.index t 1 * 64 + 1 * k.val = k.val
    rw [hi.2]; omega

/-- The score tile of point `t`: the scores of its rows against its columns. -/
theorem tile_eq (c : Dev nD) (t : Fin cfg0.N) (r cc : Fin 1024) :
    tileScore (iblk m c 0 t) (iblk m c 1 t) r cc
      = score (Q m c) (T m c) (colAt (t.val / 16) r) (colAt (t.val % 16) cc) := by
  unfold tileScore score
  refine Finset.sum_congr rfl fun k _ => ?_
  rw [blk0_apply, blk1_apply]

end Cert.KernelIdeal.Blocks

end
-- ==== Proof.Chain.lean ====
/-
  The running state of the streaming log-sum-exp across the grid.

  Grid point `n` is row tile `n / 16`, column tile `n % 16`. After the body at point `n`, for every row `r` of the
  tile (global row `p = 1024 * (n / 16) + r`): the two scratch columns hold the running maximum and sum of row `p` after
  its first `n % 16 + 1` column tiles; once the diagonal tile is passed (`n / 16 ≤ n % 16`) the third scratch column holds
  the row's own score; and at the last column tile the output block holds the row's value
  `score p p - (max + log sum)` over all 16 tiles. By induction on the point: a first column tile starts from the reset
  values `(-inf, 0)`, every other tile steps from what the point before left.
-/
import proofs.«137579_j91285234909639_2_alg».proof.Proof.Gen.KernelIdeal.Frame
import proofs.«137579_j91285234909639_2_alg».proof.Proof.Pieces
import proofs.«137579_j91285234909639_2_alg».proof.Proof.PayloadAt
import proofs.«137579_j91285234909639_2_alg».proof.Proof.Blocks
import proofs.«137579_j91285234909639_2_alg».proof.Proof.LossSpec

set_option maxRecDepth 16384

noncomputable section

open scoped BigOperators

open Idealize.ShloMosaic Idealize.ShloMosaic.TcCoe Idealize.SL.Sem

namespace Cert.KernelIdeal.Chain

open Cert.KernelIdeal Cert.KernelIdeal.Gen Idealize.ShloMosaic.ValueIdx Cert.LossSpec
open Cert.KernelIdeal.PayloadAt Cert.KernelIdeal.Blocks

variable (m : (ℓ : Loc nD τ sig) → Buf (Elt Ideal) ℓ)

/-- What the point before `t` left in the output block and the three scratch columns. -/
abbrev prev (c : Dev nD) (t : Fin cfg0.N) :=
  outsAt0 m c (t.val - 1) (Nat.lt_of_le_of_lt (Nat.sub_le _ _) t.isLt)

/-- The column tiles of row `p` of the score matrix. -/
abbrev tiles (c : Dev nD) (p : Fin 16384) : ℕ → Fin 1024 → EReal := fun j cc => score (Q m c) (T m c) p (colAt j cc)

/-- The row's own score. -/
abbrev diag (c : Dev nD) (p : Fin 16384) : EReal := score (Q m c) (T m c) p p

/-! ## What each case leaves, in the body's payloads -/

set_option maxHeartbeats 1000000 in
theorem atA (c : Dev nD) (t : Fin cfg0.N) (h0 : t.val % 16 = 0) (h1 : t.val % 17 = 0) (h2 : ¬t.val % 16 = 15) :
    (outsAt0 m c t.val t.isLt).2.1 = k0_pay10 (iblk m c 0 t) (iblk m c 1 t) (k0_pay2 (F := Ideal)) ∧ (outsAt0 m c t.val t.isLt).2.2.1 = k0_pay9 (iblk m c 0 t) (iblk m c 1 t) (k0_pay2 (F := Ideal)) (k0_pay2 (F := Ideal)) (k0_pay3 (F := Ideal))
      ∧ (outsAt0 m c t.val t.isLt).2.2.2 = k0_pay11 (iblk m c 0 t) (iblk m c 1 t) := by
  rw [outsAt0_A m c t h0 h1 h2]
  dsimp only
  exact ⟨Pieces.sout0_A_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t), Pieces.sout0_A_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t),
    Pieces.sout0_A_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t)⟩

set_option maxHeartbeats 1000000 in
theorem atD (c : Dev nD) (t : Fin cfg0.N) (h0 : t.val % 16 = 0) (h1 : ¬t.val % 17 = 0) (h2 : ¬t.val % 16 = 15) :
    (outsAt0 m c t.val t.isLt).2.1 = k0_pay10 (iblk m c 0 t) (iblk m c 1 t) (k0_pay2 (F := Ideal)) ∧ (outsAt0 m c t.val t.isLt).2.2.1 = k0_pay9 (iblk m c 0 t) (iblk m c 1 t) (k0_pay2 (F := Ideal)) (k0_pay2 (F := Ideal)) (k0_pay3 (F := Ideal)) := by
  rw [outsAt0_D m c t h0 h1 h2]
  dsimp only
  exact ⟨Pieces.sout0_D_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (iblk m c 0 t) (iblk m c 1 t), Pieces.sout0_D_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (iblk m c 0 t) (iblk m c 1 t)⟩

set_option maxHeartbeats 1000000 in
theorem atB (c : Dev nD) (t : Fin cfg0.N) (h0 : ¬t.val % 16 = 0) (h1 : ¬t.val % 17 = 0) (h2 : ¬t.val % 16 = 15) :
    (outsAt0 m c t.val t.isLt).2.1 = k0_pay10 (iblk m c 0 t) (iblk m c 1 t) (prev m c t).2.1 ∧ (outsAt0 m c t.val t.isLt).2.2.1 = k0_pay9 (iblk m c 0 t) (iblk m c 1 t) (prev m c t).2.1 (prev m c t).2.1 (prev m c t).2.2.1 ∧ (outsAt0 m c t.val t.isLt).2.2.2 = (prev m c t).2.2.2 := by
  rw [outsAt0_B m c t h0 h1 h2]
  dsimp only
  exact ⟨Pieces.sout0_B_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (prev m c t).2.1 (prev m c t).2.2.1 (prev m c t).2.2.2, Pieces.sout0_B_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (prev m c t).2.1 (prev m c t).2.2.1 (prev m c t).2.2.2, rfl⟩

set_option maxHeartbeats 1000000 in
theorem atC (c : Dev nD) (t : Fin cfg0.N) (h0 : ¬t.val % 16 = 0) (h1 : ¬t.val % 17 = 0) (h2 : t.val % 16 = 15) :
    (outsAt0 m c t.val t.isLt).2.1 = k0_pay10 (iblk m c 0 t) (iblk m c 1 t) (prev m c t).2.1 ∧ (outsAt0 m c t.val t.isLt).2.2.1 = k0_pay9 (iblk m c 0 t) (iblk m c 1 t) (prev m c t).2.1 (prev m c t).2.1 (prev m c t).2.2.1 ∧ (outsAt0 m c t.val t.isLt).2.2.2 = (prev m c t).2.2.2
      ∧ (outsAt0 m c t.val t.isLt).1 = k0_pay1 (prev m c t).2.2.2 (k0_pay10 (iblk m c 0 t) (iblk m c 1 t) (prev m c t).2.1) (k0_pay9 (iblk m c 0 t) (iblk m c 1 t) (prev m c t).2.1 (prev m c t).2.1 (prev m c t).2.2.1) := by
  rw [outsAt0_C m c t h0 h1 h2]
  dsimp only
  exact ⟨Pieces.sout0_C_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (prev m c t).2.1 (prev m c t).2.2.1 (prev m c t).2.2.2, Pieces.sout0_C_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (prev m c t).2.1 (prev m c t).2.2.1 (prev m c t).2.2.2, rfl,
    Pieces.out0_C_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (prev m c t).2.1 (prev m c t).2.2.1 (prev m c t).2.2.2⟩

set_option maxHeartbeats 1000000 in
theorem atE (c : Dev nD) (t : Fin cfg0.N) (h0 : ¬t.val % 16 = 0) (h1 : t.val % 17 = 0) (h2 : ¬t.val % 16 = 15) :
    (outsAt0 m c t.val t.isLt).2.1 = k0_pay10 (iblk m c 0 t) (iblk m c 1 t) (prev m c t).2.1 ∧ (outsAt0 m c t.val t.isLt).2.2.1 = k0_pay9 (iblk m c 0 t) (iblk m c 1 t) (prev m c t).2.1 (prev m c t).2.1 (prev m c t).2.2.1 ∧ (outsAt0 m c t.val t.isLt).2.2.2 = k0_pay11 (iblk m c 0 t) (iblk m c 1 t) := by
  rw [outsAt0_E m c t h0 h1 h2]
  dsimp only
  exact ⟨Pieces.sout0_E_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (prev m c t).2.1 (prev m c t).2.2.1, Pieces.sout0_E_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (prev m c t).2.1 (prev m c t).2.2.1,
    Pieces.sout0_E_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (prev m c t).2.1 (prev m c t).2.2.1⟩

set_option maxHeartbeats 1000000 in
theorem atF (c : Dev nD) (t : Fin cfg0.N) (h0 : ¬t.val % 16 = 0) (h1 : t.val % 17 = 0) (h2 : t.val % 16 = 15) :
    (outsAt0 m c t.val t.isLt).2.1 = k0_pay10 (iblk m c 0 t) (iblk m c 1 t) (prev m c t).2.1 ∧ (outsAt0 m c t.val t.isLt).2.2.1 = k0_pay9 (iblk m c 0 t) (iblk m c 1 t) (prev m c t).2.1 (prev m c t).2.1 (prev m c t).2.2.1 ∧ (outsAt0 m c t.val t.isLt).2.2.2 = k0_pay11 (iblk m c 0 t) (iblk m c 1 t)
      ∧ (outsAt0 m c t.val t.isLt).1 = k0_pay1 (k0_pay11 (iblk m c 0 t) (iblk m c 1 t)) (k0_pay10 (iblk m c 0 t) (iblk m c 1 t) (prev m c t).2.1) (k0_pay9 (iblk m c 0 t) (iblk m c 1 t) (prev m c t).2.1 (prev m c t).2.1 (prev m c t).2.2.1) := by
  rw [outsAt0_F m c t h0 h1 h2]
  dsimp only
  exact ⟨Pieces.sout0_F_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) ((hcond0_2 t).mpr h2) (iblk m c 0 t) (iblk m c 1 t) (prev m c t).2.1 (prev m c t).2.2.1, Pieces.sout0_F_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) ((hcond0_2 t).mpr h2) (iblk m c 0 t) (iblk m c 1 t) (prev m c t).2.1 (prev m c t).2.2.1,
    Pieces.sout0_F_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) ((hcond0_2 t).mpr h2) (iblk m c 0 t) (iblk m c 1 t) (prev m c t).2.1 (prev m c t).2.2.1, Pieces.out0_F_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) ((hcond0_2 t).mpr h2) (iblk m c 0 t) (iblk m c 1 t) (prev m c t).2.1 (prev m c t).2.2.1⟩

/-! ## One row of one tile -/

/-- A tile that steps from carried values moves the streaming state by one tile. -/
theorem pair_step (x0 x1 : Vec Ideal S1024x64 .bf16) (M L : Vec Ideal S1024x1 .f32) (r : Fin 1024)
    (f : ℕ → Fin 1024 → EReal) (j : ℕ)
    (hprev : (M (ix2 r (0 : Fin 1)), L (ix2 r (0 : Fin 1))) = Lse.state f j) (htile : tileScore x0 x1 r = f j) :
    (k0_pay10 (F := Ideal) x0 x1 M (ix2 r (0 : Fin 1)), k0_pay9 (F := Ideal) x0 x1 M M L (ix2 r (0 : Fin 1)))
      = Lse.state f (j + 1) := by
  rw [step_apply, hprev, htile]
  rfl

/-- A first column tile steps from the reset values: the state after one tile. -/
theorem pair_reset (x0 x1 : Vec Ideal S1024x64 .bf16) (r : Fin 1024) (f : ℕ → Fin 1024 → EReal)
    (htile : tileScore x0 x1 r = f 0) :
    (k0_pay10 (F := Ideal) x0 x1 (k0_pay2 (F := Ideal)) (ix2 r (0 : Fin 1)),
        k0_pay9 (F := Ideal) x0 x1 (k0_pay2 (F := Ideal)) (k0_pay2 (F := Ideal)) (k0_pay3 (F := Ideal)) (ix2 r (0 : Fin 1))) = Lse.state f 1 := by
  rw [step_apply, pay2_apply, pay3_apply, htile]
  rfl

/-- The score tile of point `t`, row `r`, is column tile `j` of global row `1024 * i + r`. -/
theorem tile_row (c : Dev nD) (t : Fin cfg0.N) (r : Fin 1024) (i j : ℕ) (hi : t.val / 16 = i) (hj : t.val % 16 = j) :
    tileScore (iblk m c 0 t) (iblk m c 1 t) r = tiles m c (colAt i r) j := by
  subst hi hj
  exact funext fun cc => tile_eq m c t r cc

/-- On a diagonal tile the tile's diagonal entry of row `r` is the row's own score. -/
theorem tile_diag (c : Dev nD) (t : Fin cfg0.N) (r : Fin 1024) (i : ℕ) (hi : t.val / 16 = i) (hd : t.val % 16 = i) :
    k0_pay11 (F := Ideal) (iblk m c 0 t) (iblk m c 1 t) (ix2 r (0 : Fin 1)) = diag m c (colAt i r) := by
  rw [pay11_apply, tile_eq, hi, hd]

/-! ## The invariant -/

/-- The state after point `n`, stated for a row tile `i` and a column tile `j` (which are `n / 16` and `n % 16`). -/
def InvAt (c : Dev nD) (n : ℕ) (hn : n < cfg0.N) (i j : ℕ) : Prop :=
  ∀ r : Fin 1024,
    ((outsAt0 m c n hn).2.1 (ix2 r (0 : Fin 1)), (outsAt0 m c n hn).2.2.1 (ix2 r (0 : Fin 1)))
        = Lse.state (tiles m c (colAt i r)) (j + 1)
    ∧ (i ≤ j → (outsAt0 m c n hn).2.2.2 (ix2 r (0 : Fin 1)) = diag m c (colAt i r))
    ∧ (j = 15 → (outsAt0 m c n hn).1 (ix2 r (0 : Fin 1))
          = Lse.streamed (diag m c (colAt i r)) (Lse.state (tiles m c (colAt i r)) 16))

theorem inv (c : Dev nD) : ∀ (n : ℕ) (hn : n < cfg0.N), InvAt m c n hn (n / 16) (n % 16)
  | 0, hn => by
    intro r
    obtain ⟨e0, e1, e2⟩ := atA m c ⟨0, hn⟩ (show (0 : ℕ) % 16 = 0 from rfl) (show (0 : ℕ) % 17 = 0 from rfl)
      (show ¬(0 : ℕ) % 16 = 15 by decide)
    refine ⟨?_, fun _ => ?_, fun h => absurd h (by decide)⟩
    · show ((outsAt0 m c 0 hn).2.1 (ix2 r (0 : Fin 1)), (outsAt0 m c 0 hn).2.2.1 (ix2 r (0 : Fin 1))) = _
      rw [show (outsAt0 m c 0 hn).2.1 = _ from e0, show (outsAt0 m c 0 hn).2.2.1 = _ from e1]
      exact pair_reset _ _ r _ (tile_row m c ⟨0, hn⟩ r 0 0 (show (0 : ℕ) / 16 = 0 from rfl) (show (0 : ℕ) % 16 = 0 from rfl))
    · rw [show (outsAt0 m c 0 hn).2.2.2 = _ from e2]
      exact tile_diag m c ⟨0, hn⟩ r 0 (show (0 : ℕ) / 16 = 0 from rfl) (show (0 : ℕ) % 16 = 0 from rfl)
  | n + 1, hn => by
    have hN : n + 1 < 256 := lt_of_lt_of_eq hn N_0
    have ih := inv c n (Nat.lt_of_succ_lt hn)
    -- the point before, as the case lemmas spell it, is point `n`
    have hp : prev m c ⟨n + 1, hn⟩ = outsAt0 m c n (Nat.lt_of_succ_lt hn) := rfl
    by_cases h0 : (n + 1) % 16 = 0
    · -- a first column tile: reset
      have hj : (n + 1) % 16 = 0 := h0
      rw [hj]
      by_cases h1 : (n + 1) % 17 = 0
      · -- first column tile on the diagonal happens at point 0 only
        exfalso; omega
      · have h2 : ¬(n + 1) % 16 = 15 := by omega
        obtain ⟨e0, e1⟩ := atD m c ⟨n + 1, hn⟩ h0 h1 h2
        intro r
        refine ⟨?_, fun hle => ?_, fun h => absurd h (by decide)⟩
        · show ((outsAt0 m c (n + 1) hn).2.1 (ix2 r (0 : Fin 1)), (outsAt0 m c (n + 1) hn).2.2.1 (ix2 r (0 : Fin 1))) = _
          rw [show (outsAt0 m c (n + 1) hn).2.1 = _ from e0, show (outsAt0 m c (n + 1) hn).2.2.1 = _ from e1]
          exact pair_reset _ _ r _ (tile_row m c ⟨n + 1, hn⟩ r _ 0 rfl h0)
        · exfalso; omega
    · -- a later column tile: step from the point before, in the same row tile
      have hq : (n + 1) / 16 = n / 16 := by omega
      have hj : (n + 1) % 16 = n % 16 + 1 := by omega
      rw [hq, hj]
      have pairOf : ∀ (M' L' : Vec Ideal S1024x1 .f32),
          M' = k0_pay10 (iblk m c 0 ⟨n + 1, hn⟩) (iblk m c 1 ⟨n + 1, hn⟩) (outsAt0 m c n (Nat.lt_of_succ_lt hn)).2.1 →
          L' = k0_pay9 (iblk m c 0 ⟨n + 1, hn⟩) (iblk m c 1 ⟨n + 1, hn⟩) (outsAt0 m c n (Nat.lt_of_succ_lt hn)).2.1
                (outsAt0 m c n (Nat.lt_of_succ_lt hn)).2.1 (outsAt0 m c n (Nat.lt_of_succ_lt hn)).2.2.1 →
          ∀ r : Fin 1024, (M' (ix2 r (0 : Fin 1)), L' (ix2 r (0 : Fin 1)))
            = Lse.state (tiles m c (colAt (n / 16) r)) (n % 16 + 1 + 1) := by
        intro M' L' eM eL r
        rw [eM, eL]
        exact pair_step _ _ _ _ r _ (n % 16 + 1) (ih r).1 (tile_row m c ⟨n + 1, hn⟩ r _ _ hq hj)
      by_cases h1 : (n + 1) % 17 = 0
      · -- the diagonal tile
        have hd : (n + 1) % 16 = n / 16 := by omega
        by_cases h2 : (n + 1) % 16 = 15
        · obtain ⟨e0, e1, e2, e3⟩ := atF m c ⟨n + 1, hn⟩ h0 h1 h2
          rw [hp] at e0 e1 e3
          intro r
          have hpair := pairOf _ _ e0 e1 r
          have hdg : (outsAt0 m c (n + 1) hn).2.2.2 (ix2 r (0 : Fin 1)) = diag m c (colAt (n / 16) r) := by
            rw [show (outsAt0 m c (n + 1) hn).2.2.2 = _ from e2]
            exact tile_diag m c ⟨n + 1, hn⟩ r _ hq hd
          refine ⟨hpair, fun _ => hdg, fun _ => ?_⟩
          rw [show (outsAt0 m c (n + 1) hn).1 = _ from e3, pay1_apply]
          rw [← e0, ← e1, ← e2, hdg, hpair]
          have h16 : n % 16 + 1 + 1 = 16 := by omega
          rw [h16]
        · obtain ⟨e0, e1, e2⟩ := atE m c ⟨n + 1, hn⟩ h0 h1 h2
          rw [hp] at e0 e1
          intro r
          refine ⟨pairOf _ _ e0 e1 r, fun _ => ?_, fun h => absurd h (by omega)⟩
          rw [show (outsAt0 m c (n + 1) hn).2.2.2 = _ from e2]
          exact tile_diag m c ⟨n + 1, hn⟩ r _ hq hd
      · -- off the diagonal: the third column is carried
        have hne : ¬(n + 1) % 16 = n / 16 := by omega
        by_cases h2 : (n + 1) % 16 = 15
        · obtain ⟨e0, e1, e2, e3⟩ := atC m c ⟨n + 1, hn⟩ h0 h1 h2
          rw [hp] at e0 e1 e2 e3
          intro r
          have hpair := pairOf _ _ e0 e1 r
          have hdg : (outsAt0 m c (n + 1) hn).2.2.2 (ix2 r (0 : Fin 1)) = diag m c (colAt (n / 16) r) := by
            rw [show (outsAt0 m c (n + 1) hn).2.2.2 = _ from e2]
            exact (ih r).2.1 (by omega)
          refine ⟨hpair, fun _ => hdg, fun _ => ?_⟩
          rw [show (outsAt0 m c (n + 1) hn).1 = _ from e3, pay1_apply]
          rw [← e0, ← e1, ← e2, hdg, hpair]
          have h16 : n % 16 + 1 + 1 = 16 := by omega
          rw [h16]
        · obtain ⟨e0, e1, e2⟩ := atB m c ⟨n + 1, hn⟩ h0 h1 h2
          rw [hp] at e0 e1 e2
          intro r
          refine ⟨pairOf _ _ e0 e1 r, fun hle => ?_, fun h => absurd h (by omega)⟩
          rw [show (outsAt0 m c (n + 1) hn).2.2.2 = _ from e2]
          exact (ih r).2.1 (by omega)

end Cert.KernelIdeal.Chain

end
-- ==== Proof.KernelValue.lean ====
/-
  The kernel program's result, as a function of the argument arrays.

  The output array [16384, 1] is written back once per row tile, at the tile's last column point `16 * i + 15`, with
  the block of row values `score p p - (max + log sum)` over all 16 column tiles (the induction across the grid); the
  16 blocks tile the array, so the array ends holding the row value of every row. The host then sums the array from
  the zero word, divides by the word of 16384 and negates: minus the mean of the row values, the streaming spelling of
  the loss.
-/
import proofs.«137579_j91285234909639_2_alg».proof.Proof.Gen.KernelIdeal.Frame
import proofs.«137579_j91285234909639_2_alg».proof.Proof.Chain
import proofs.«137579_j91285234909639_2_alg».proof.Proof.LossSpec
import Idealize.ShloMosaic.Lib.Pipeline.Value
import Idealize.ShloMosaic.Lib.StableHlo.Run
import Idealize.ShloMosaic.PureOps.Ideal.Laws

set_option maxRecDepth 16384

noncomputable section

open scoped BigOperators

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx Idealize.ShloMosaic.StableHlo Cert.LossSpec
open Cert.KernelIdeal.Blocks Cert.KernelIdeal.Chain

variable (m : (ℓ : Loc nD τ sig) → Buf (Elt Ideal) ℓ) (ρ : Dev nD → PrngReg)

/-- The value of row `p`: its own score minus the log-sum-exp of its scores, streamed over the 16 column tiles. -/
abbrev rowVal (c : Dev nD) (p : Fin 16384) : EReal := Lse.streamed (diag m c p) (Lse.state (tiles m c p) 16)

/-- The output array after the region: every row at its value. -/
abbrev G (c : Dev nD) : S16384x1.Idx → EReal := fun i => rowVal m c ⟨(i 0).val, idx2_lt0 i⟩

/-- What a last column point writes back is its row tile's block of `G`. -/
theorem flushed_eq (c : Dev nD) (t : Fin cfg0.N) (hf : (cfg0.win 2).flush t = true) :
    (dats m 0 c).flushed 2 t = ((cfg0.win 2).blk t).view.read (Elt Ideal) (G m c) := by
  have h15 : t.val % 16 = 15 := (flush0_2 t).mp hf
  have hi := idx2 t
  have hN := lt_256 t
  show (cfg0.win 2).cut (grid0.coords t) ((dats m 0 c).after 2 t) = _
  rw [after0_2]
  refine funext fun (j : S1024x1.Idx) => ?_
  obtain ⟨r, z, rfl⟩ : ∃ (r : Fin 1024) (z : Fin 1), j = ix2 r z := ⟨j 0, j 1, eq_ix2 j⟩
  obtain rfl : z = 0 := Subsingleton.elim _ _
  show (outsAt0 m c t.val t.isLt).1 (ix2 r (0 : Fin 1)) = G m c (((cfg0.win 2).blk t).view.emb (ix2 r (0 : Fin 1)))
  rw [(inv m c t.val t.isLt r).2.2 h15]
  show rowVal m c (colAt (t.val / 16) r) = rowVal m c _
  refine congrArg (rowVal m c) (Fin.ext ?_)
  show (1024 * (t.val / 16) + r.val) % 16384 = win0_2.index t 0 * 1024 + 1 * r.val
  rw [hi.1]; have := r.isLt; omega

/-- An index of the array is in point `t`'s block iff each coordinate is in the block's range on its axis. -/
theorem mem_blk (t : Fin cfg0.N) (i : S16384x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v9).slice (win0_2.rect t)).set ↔ _
  rw [View.set_slice_whole, Rect.mem_set_unit]
  exact Iff.rfl

/-- Every row lies in the block its row tile's last column point writes back. -/
theorem cover (i : S16384x1.Idx) :
    ∃ t : Fin cfg0.N, (cfg0.win 2).flush t = true ∧ i ∈ ((cfg0.win 2).blk t).view.set := by
  have hi0 : (i 0).val < 16384 := idx2_lt0 i
  have hi1 : (i 1).val < 1 := idx2_lt1 i
  have hN : cfg0.N = 256 := N_0
  refine ⟨⟨16 * ((i 0).val / 1024) + 15, by rw [hN]; omega⟩, ?_, ?_⟩
  · exact (flush0_2 _).mpr (by show (16 * ((i 0).val / 1024) + 15) % 16 = 15; omega)
  · rw [mem_blk]
    have hx := idx2 (⟨16 * ((i 0).val / 1024) + 15, by rw [hN]; omega⟩ : Fin cfg0.N)
    intro a
    match a with
    | ⟨0, _⟩ =>
      show win0_2.index _ 0 * 1024 ≤ (i 0).val ∧ (i 0).val < win0_2.index _ 0 * 1024 + 1024
      rw [hx.1]
      show (16 * ((i 0).val / 1024) + 15) / 16 * 1024 ≤ (i 0).val ∧ (i 0).val < (16 * ((i 0).val / 1024) + 15) / 16 * 1024 + 1024
      omega
    | ⟨1, _⟩ =>
      show win0_2.index _ 1 * 1 ≤ (i 1).val ∧ (i 1).val < win0_2.index _ 1 * 1 + 1
      rw [hx.2]
      omega

/-- So the output array ends holding every row's value. -/
theorem final (c : Dev nD) : (dats m 0 c).arrAt 2 cfg0.N = G m c :=
  (dats m 0 c).arrAt_eq_of_cover 2 (G m c) (flushed_eq m c) (cover)

/-- Minus the mean, as the host spells it over the [16384, 1] array: the total sum from the zero word, the quotient
    by the word of 16384, the negation — the row values summed row by row. -/
theorem tail_apply (A : FVec Ideal S16384x1 .f32) (v : Fin 16384 → EReal) (hA : ∀ p : Fin 16384, A (ix2 p (0 : Fin 1)) = v p)
    (j : S_.Idx) :
    Host.negf (F := Ideal) (Host.divf (F := Ideal)
        (Host.reduceAdd (F := Ideal) A (constant (F := Ideal) S_ .f32 0x00000000#32) reducesTo_S16384x1_S_d0_1 h_S_)
        (constant (F := Ideal) S_ .f32 0x46800000#32)) j = negMean v := by
  show -(Ideal.div (Ideal.hostReduceAdd reducesTo_S16384x1_S_d0_1 A _ j) (Ideal.ofBits .f32 0x46800000#32)) = _
  rw [Ideal.hostReduceAdd_total reducesTo_S16384x1_S_d0_1 (fun b => b.elim0)]
  have hs : ∑ i : S16384x1.Idx, A i = ∑ p : Fin 16384, v p := by
    rw [sum_idx2]
    refine Finset.sum_congr rfl fun p _ => ?_
    rw [Fin.sum_univ_one]
    exact hA p
  rw [hs]
  rfl

/-- The program's result buffer after the host tail: the loss in the streaming spelling. -/
theorem tail_eq (c : Dev nD) :
    Pipeline.afterTail₀ cfgs (dats m) 0 (V0 m) [hostOps1] c main_v12
      = fun _ => lossStreamed (m ((c : Thread nD τ).loc main_arg0)) (m ((c : Thread nD τ).loc main_arg1))
          (m ((c : Thread nD τ).loc main_arg2)) := by
  have hw := (Pipeline.withArrays_arr spec0 launch0.win.arr_inj c (V0 m c) (fun w => (dats m 0 c).arrAt w cfg0.N) 2).trans (final m c)
  unfold Pipeline.afterTail₀
  show StableHlo.after hostOps1 _ (Proc.devRef .tc main_v12) = _
  after_results
  funext j
  refine (tail_apply _ (rowVal m c) (fun p => ?_) j).trans rfl
  exact (congrFun hw (ix2 p (0 : Fin 1))).trans rfl

/-- THE RUN: every weakly fair execution of the kernel program ends with its result at the streamed loss of the
    argument arrays, and the arguments unchanged. -/
theorem run : θ_run defs (onTc (τ := τ) (main (F := Ideal))) ⟨m, fun _ => 0, ρ⟩ fun r => ∀ c : Dev nD,
      r.2.mem ((c.tc : Thread nD τ).loc main_v12)
        = (fun _ => lossStreamed (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v12 (Pipeline.mem_restRefs_of main_v12 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KernelValue

end
-- ==== Proof.LibRealValued.lean ====
/-
  Extended reals that are images of reals, and the operations that keep them so.

  Sums, differences, products, finite sums, the positive part, a quotient by a nonzero real, and the reciprocal square
  root of a positive real all send images of reals to images of reals. A comparison of two such values is the
  comparison of the reals, and a selection between two of them is one of them.
-/
import Idealize.ShloMosaic.PureOps.Ideal

noncomputable section

open scoped BigOperators

namespace Cert.Lib.RealValued

open Idealize.ShloMosaic

/-- An extended real that is the image of a real. -/
def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of images of reals is the image of a real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The positive part of the image of a real. -/
theorem IsReal.max_zero {x : EReal} (hx : IsReal x) : IsReal (max x 0) := by
  obtain ⟨a, rfl⟩ := hx
  rcases le_total a 0 with h | h
  · exact ⟨0, by rw [max_eq_right (by exact_mod_cast h), EReal.coe_zero]⟩
  · exact ⟨a, by rw [max_eq_left (by exact_mod_cast h)]⟩

/-- The positive part of the image of a real is not negative. -/
theorem max_zero_nonneg (x : EReal) : 0 ≤ max x 0 := le_max_right x 0

/-- The quotient of the image of a real by the image of a nonzero real. -/
theorem IsReal.div {x : EReal} (hx : IsReal x) {n : ℝ} (hn : n ≠ 0) : IsReal (Ideal.div x (n : EReal)) := by
  obtain ⟨a, rfl⟩ := hx
  exact ⟨a * (1 / n), by rw [Ideal.div_coe hn, EReal.coe_mul]⟩

/-- The reciprocal square root of the image of a positive real. -/
theorem IsReal.rsqrt_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A selection between two images of reals is the image of a real, whatever the condition. -/
theorem IsReal.select {x y : EReal} (c : BitVec 1) (hx : IsReal x) (hy : IsReal y) : IsReal (Scalar.select c x y) := by
  unfold Scalar.select
  split
  · exact hx
  · exact hy

/-- A selection is the image of a real when the branch the condition takes is. -/
theorem IsReal.select_of {x y : EReal} (c : BitVec 1) (hx : c = 1 → IsReal x) (hy : c ≠ 1 → IsReal y) :
    IsReal (Scalar.select c x y) := by
  unfold Scalar.select
  split
  · rename_i h; exact hx h
  · rename_i h; exact hy h

/-- The "greater than" comparison holds exactly when the order does. -/
theorem cmp_ogt_eq_one (x y : EReal) : Ideal.cmp .ogt x y = 1 ↔ y < x := by
  unfold Ideal.cmp
  by_cases h : y < x
  · simp [h]
  · simp [h]

/-- The reciprocal-or-zero of a count: `1 / d` where `d` is positive, `0` elsewhere, is the image of a real when
    `d` is. -/
theorem IsReal.recip_or_zero {d : EReal} (hd : IsReal d) (one zero : EReal) (h1 : IsReal one) (h0 : IsReal zero)
    (z : EReal) (hz : z = 0) :
    IsReal (Scalar.select (Ideal.cmp .ogt d z) (Ideal.div one d) zero) := by
  subst hz
  refine IsReal.select_of _ (fun hc => ?_) (fun _ => h0)
  obtain ⟨r, rfl⟩ := hd
  have hr : (0 : EReal) < (r : EReal) := (cmp_ogt_eq_one _ _).mp hc
  have hr' : r ≠ 0 := by
    rintro rfl
    exact absurd hr (by simp)
  exact h1.div hr'

end Cert.Lib.RealValued

end
-- ==== Proof.PreDecode.lean ====
/-
  What the precondition says of the three argument arrays on the extended reals: every logit and every target is a
  real number (its absolute value is below +inf), and every noise probability is a positive real (its absolute value
  is below +inf and it is above zero).
-/
import proofs.«137579_j91285234909639_2_alg».proof.Pre_finite_inputs
import proofs.«137579_j91285234909639_2_alg».proof.Proof.LibRealValued
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Pre_finite_inputs.Decode

open Cert.Pre_finite_inputs Idealize.ShloMosaic Idealize.ShloMosaic.ValueIdx Cert.Lib.RealValued

variable [Facts]
open Facts

instance : Subsingleton S_.Idx := ⟨fun a b => funext fun d => d.elim0⟩

/-- The `+inf` word denotes the top of the extended reals. -/
theorem ofBits_pos_inf : Ideal.ofBits .f32 0x7F800000#32 = ⊤ := by simp [Ideal.ofBits, Ideal.ieee]

/-- The "less than" comparison holds exactly when the order does. -/
theorem cmp_olt_eq_one (x y : EReal) : Ideal.cmp .olt x y = 1 ↔ x < y := by
  unfold Ideal.cmp
  by_cases h : x < y
  · simp [h]
  · simp [h]

/-- An extended real whose absolute value is below `+inf` is a real. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- An entry that passes the finiteness test is a real. -/
theorem finite_entry {s : Shape} (x : FVec Ideal s .f32) (hb : S_.BroadcastsInDim s (![] : Fin 0 → Fin s.rank)) (i : s.Idx)
    (h : cmpf .olt (Host.absf (F := Ideal) x) (broadcastInDim s ![] hb (constant (F := Ideal) S_ .f32 0x7F800000#32)) i = 1#1) :
    ∃ r : ℝ, x i = (r : EReal) := by
  have hb' : broadcastInDim s ![] hb (constant (F := Ideal) S_ .f32 0x7F800000#32) i = Ideal.ofBits .f32 0x7F800000#32 :=
    broadcastInDim_apply _ hb (constant (F := Ideal) S_ .f32 0x7F800000#32) i (fun a => a.elim0) (fun a => a.elim0)
  have hc : Ideal.cmp .olt (max (x i) (-(x i)))
      (broadcastInDim s ![] hb (constant (F := Ideal) S_ .f32 0x7F800000#32) i) = 1 := h
  rw [hb', ofBits_pos_inf] at hc
  exact real_of_abs_lt_top _ ((cmp_olt_eq_one _ _).mp hc)

/-- An entry that passes the positivity test is above zero. -/
theorem positive_entry {s : Shape} (x : FVec Ideal s .f32) (hb : S_.BroadcastsInDim s (![] : Fin 0 → Fin s.rank)) (i : s.Idx)
    (h : cmpf .ogt x (broadcastInDim s ![] hb (constant (F := Ideal) S_ .f32 0x00000000#32)) i = 1#1) : 0 < x i := by
  have hb' : broadcastInDim s ![] hb (constant (F := Ideal) S_ .f32 0x00000000#32) i = Ideal.ofBits .f32 0x00000000#32 :=
    broadcastInDim_apply _ hb (constant (F := Ideal) S_ .f32 0x00000000#32) i (fun a => a.elim0) (fun a => a.elim0)
  have hc : Ideal.cmp .ogt (x i) (broadcastInDim s ![] hb (constant (F := Ideal) S_ .f32 0x00000000#32) i) = 1 := h
  rw [hb', Ideal.ofBits_zero_f32] at hc
  exact (cmp_ogt_eq_one _ _).mp hc

/-- THE PRECONDITION, READ: all three arrays hold reals, and the noise probabilities are positive. -/
theorem decode (x0 x1 : FVec Ideal S16384x64 .f32) (x2 : FVec Ideal S64 .f32)
    (h : fn (F := Ideal) x0 x1 x2 = fun _ => 1#1) :
    (∀ i, ∃ r : ℝ, x0 i = (r : EReal)) ∧ (∀ i, ∃ r : ℝ, x1 i = (r : EReal))
      ∧ (∀ i, ∃ r : ℝ, x2 i = (r : EReal)) ∧ (∀ i, 0 < x2 i) := by
  have h0 := congrFun h ix0
  dsimp only [fn, fn_part1] at h0
  obtain ⟨h13, h16⟩ := IntOp.andi_eq_one.1 h0
  obtain ⟨h8, h12⟩ := IntOp.andi_eq_one.1 h13
  obtain ⟨h3, h7⟩ := IntOp.andi_eq_one.1 h8
  refine ⟨fun i => finite_entry x0 bcast_S_S16384x64 i (Host.reduce_andi_all _ _ _ _ _ h3 i),
    fun i => finite_entry x1 bcast_S_S16384x64 i (Host.reduce_andi_all _ _ _ _ _ h7 i),
    fun i => finite_entry x2 bcast_S_S64 i (Host.reduce_andi_all _ _ _ _ _ h12 i),
    fun i => positive_entry x2 bcast_S_S64 i (Host.reduce_andi_all _ _ _ _ _ h16 i)⟩

end Cert.Pre_finite_inputs.Decode

end
-- ==== Proof.LibOnlineLse.lean ====
/-
  The streaming form and the two-pass form of a row's negative log-likelihood agree on real scores.

  GENERAL LEMMAS. For a row of real scores laid out as J > 0 tiles of a nonempty finite width, let M be the
  largest score and L the sum of exp (score - M) over the whole row (so L >= 1 > 0).

  * The streaming recurrence, which keeps a running maximum and a running sum of exponentials relative to it,
    ends in the state (M, L): after every tile the running maximum is the largest score seen so far and the
    running sum is the sum of exp (score - running maximum) over the scores seen so far, because moving the
    maximum from m to m' multiplies every term exp (s - m) by exp (m - m'), which gives exp (s - m').
  * In the two-pass form the row's maximum is M, the shifted row has maximum 0, so the second subtraction is
    of 0 and the sum of exponentials is L again.
  * Both values are then the real number d - M - log L.
-/
import proofs.«137579_j91285234909639_2_alg».proof.Proof.LibLseSpec

noncomputable section

open scoped BigOperators

namespace Lse

open Idealize.ShloMosaic

/-- The image of a finite sum of reals is the sum of the images. -/
theorem coe_sum {α : Type} (s : Finset α) (h : α → ℝ) :
    ((∑ i ∈ s, h i : ℝ) : EReal) = ∑ i ∈ s, (h i : EReal) := by
  classical
  induction s using Finset.induction_on with
  | empty => simp
  | insert a s ha ih => rw [Finset.sum_insert ha, Finset.sum_insert ha, EReal.coe_add, ih]

/-- The exponential of a difference of two reals, read on the extended reals, is the real exponential. -/
theorem exp_coe_sub (a b : ℝ) : Ideal.exp ((a : EReal) - (b : EReal)) = ((Real.exp (a - b) : ℝ) : EReal) := by
  rw [← EReal.coe_sub]; rfl

/-- A maximum folded from -inf over a family that is bounded by B and attains B is B. -/
theorem foldMax_eq_of_le_of_attained {κ : Type} [Fintype κ] (f : κ → EReal) (B : EReal)
    (hle : ∀ c, f c ≤ B) (hex : ∃ c, f c = B) : foldMax f = B := by
  unfold foldMax
  apply le_antisymm
  · rw [Finset.fold_max_le]
    exact ⟨bot_le, fun c _ => hle c⟩
  · rw [Finset.le_fold_max]
    obtain ⟨c, hc⟩ := hex
    exact Or.inr ⟨c, Finset.mem_univ c, hc.ge⟩

/-- The folded maximum of a family of reals with real bound B that is attained is (the image of) B. -/
theorem foldMax_coe_eq {κ : Type} [Fintype κ] (s : κ → ℝ) (B : ℝ)
    (hle : ∀ c, s c ≤ B) (hex : ∃ c, s c = B) : foldMax (fun c => ((s c : ℝ) : EReal)) = (B : EReal) := by
  apply foldMax_eq_of_le_of_attained
  · intro c; exact EReal.coe_le_coe_iff.mpr (hle c)
  · obtain ⟨c, hc⟩ := hex
    exact ⟨c, by rw [hc]⟩

/-- A family of reals over a nonempty finite type has a largest member. -/
theorem exists_real_max {κ : Type} [Fintype κ] [Nonempty κ] (s : κ → ℝ) :
    ∃ B : ℝ, (∀ c, s c ≤ B) ∧ ∃ c, s c = B := by
  obtain ⟨c0, hc0⟩ := Finite.exists_max s
  exact ⟨s c0, hc0, c0, rfl⟩

/-- The larger of two reals, read on the extended reals, is the larger of their images. -/
theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- One streaming step on a real state and a real tile whose largest member is B. -/
theorem step_coe {κ : Type} [Fintype κ] (m l : ℝ) (s : κ → ℝ) (B : ℝ)
    (hle : ∀ c, s c ≤ B) (hex : ∃ c, s c = B) :
    step ((m : EReal), (l : EReal)) (fun c => ((s c : ℝ) : EReal))
      = (((max m B : ℝ) : EReal),
          ((Real.exp (m - max m B) * l + ∑ c, Real.exp (s c - max m B) : ℝ) : EReal)) := by
  unfold step
  simp only
  rw [foldMax_coe_eq s B hle hex, coe_max_real, exp_coe_sub]
  simp_rw [exp_coe_sub]
  rw [← coe_sum, ← EReal.coe_mul, ← EReal.coe_add]

/-- The first streaming step, from (-inf, 0), on a real tile whose largest member is B. -/
theorem step_init_coe {κ : Type} [Fintype κ] (s : κ → ℝ) (B : ℝ)
    (hle : ∀ c, s c ≤ B) (hex : ∃ c, s c = B) :
    step ((⊥ : EReal), (0 : EReal)) (fun c => ((s c : ℝ) : EReal))
      = ((B : EReal), ((∑ c, Real.exp (s c - B) : ℝ) : EReal)) := by
  unfold step
  simp only
  rw [foldMax_coe_eq s B hle hex, max_eq_right bot_le, mul_zero, zero_add]
  simp_rw [exp_coe_sub]
  rw [← coe_sum]

/-- The streaming invariant: after n + 1 real tiles the running maximum is the largest score seen so far
    and the running sum is the sum of the exponentials of the scores seen so far relative to it. -/
theorem state_inv {κ : Type} [Fintype κ] [Nonempty κ] (J : ℕ)
    (S : ℕ → κ → ℝ) (f : ℕ → κ → EReal) (hf : ∀ j, j < J → ∀ c, f j c = ((S j c : ℝ) : EReal)) :
    ∀ n, n < J → ∃ Mn : ℝ, (∀ j, j < n + 1 → ∀ c, S j c ≤ Mn) ∧ (∃ j, j < n + 1 ∧ ∃ c, S j c = Mn) ∧
      state f (n + 1)
        = ((Mn : EReal), ((∑ j ∈ Finset.range (n + 1), ∑ c, Real.exp (S j c - Mn) : ℝ) : EReal)) := by
  intro n
  induction n with
  | zero =>
    intro h0
    obtain ⟨B, hle, hex⟩ := exists_real_max (S 0)
    have hf0 : f 0 = fun c => ((S 0 c : ℝ) : EReal) := funext (hf 0 h0)
    refine ⟨B, ?_, ?_, ?_⟩
    · intro j hj c
      have : j = 0 := by omega
      subst this; exact hle c
    · exact ⟨0, by omega, hex⟩
    · show step (state f 0) (f 0) = _
      rw [hf0]
      show step ((⊥ : EReal), (0 : EReal)) _ = _
      rw [step_init_coe (S 0) B hle hex]
      simp
  | succ n ih =>
    intro hn
    obtain ⟨Mn, hMle, hMex, hst⟩ := ih (by omega)
    obtain ⟨B, hle, hex⟩ := exists_real_max (S (n + 1))
    have hfn : f (n + 1) = fun c => ((S (n + 1) c : ℝ) : EReal) := funext (hf (n + 1) hn)
    refine ⟨max Mn B, ?_, ?_, ?_⟩
    · intro j hj c
      rcases Nat.lt_succ_iff_lt_or_eq.mp hj with h | h
      · exact le_trans (hMle j h c) (le_max_left _ _)
      · subst h; exact le_trans (hle c) (le_max_right _ _)
    · rcases le_total Mn B with h | h
      · rw [max_eq_right h]
        exact ⟨n + 1, by omega, hex⟩
      · rw [max_eq_left h]
        obtain ⟨j, hj, hc⟩ := hMex
        exact ⟨j, by omega, hc⟩
    · show step (state f (n + 1)) (f (n + 1)) = _
      rw [hst, hfn, step_coe _ _ (S (n + 1)) B hle hex]
      congr 2
      rw [Finset.sum_range_succ _ (n + 1), Finset.mul_sum]
      congr 1
      apply Finset.sum_congr rfl
      intro j _
      rw [Finset.mul_sum]
      apply Finset.sum_congr rfl
      intro c _
      rw [← Real.exp_add]
      congr 1
      ring

/-- The streaming form's value on a real state with a positive sum. -/
theorem streamed_coe (d M L : ℝ) (hL : 0 < L) :
    streamed (d : EReal) ((M : EReal), (L : EReal)) = ((d - (M + Real.log L) : ℝ) : EReal) := by
  unfold streamed
  simp only
  rw [Ideal.log_coe, if_neg (not_le.mpr hL), ← EReal.coe_add, ← EReal.coe_sub]

/-- The two-pass form's value on a real row whose largest member is M. -/
theorem twoPass_coe {ι : Type} [Fintype ι] (s : ι → ℝ) (M : ℝ)
    (hle : ∀ i, s i ≤ M) (hex : ∃ i, s i = M) (d : ℝ) :
    twoPass (fun i => ((s i : ℝ) : EReal)) (d : EReal)
      = ((d - M - Real.log (∑ i, Real.exp (s i - M)) : ℝ) : EReal) := by
  have hpos : 0 < ∑ i, Real.exp (s i - M) := by
    obtain ⟨i0, _⟩ := hex
    exact Finset.sum_pos (fun i _ => Real.exp_pos _) ⟨i0, Finset.mem_univ i0⟩
  have hM : foldMax (fun i => ((s i : ℝ) : EReal)) = (M : EReal) := foldMax_coe_eq s M hle hex
  have hZ : foldMax (fun i => ((s i : ℝ) : EReal) - (M : EReal)) = (0 : EReal) := by
    have : (fun i => ((s i : ℝ) : EReal) - (M : EReal)) = fun i => (((s i - M : ℝ)) : EReal) := by
      funext i; rw [EReal.coe_sub]
    rw [this, ← EReal.coe_zero]
    apply foldMax_coe_eq
    · intro i; linarith [hle i]
    · obtain ⟨i, hi⟩ := hex
      exact ⟨i, by rw [hi]; ring⟩
  unfold twoPass
  rw [hM, hZ, max_eq_right bot_le, sub_zero, zero_add]
  simp_rw [sub_zero, exp_coe_sub]
  rw [← coe_sum, Ideal.log_coe, if_neg (not_le.mpr hpos), ← EReal.coe_sub, ← EReal.coe_sub]

/-- The streaming form and the two-pass form agree on a row of real scores laid out as J > 0 tiles. -/
theorem streamed_eq_twoPass {κ ι : Type} [Fintype κ] [Nonempty κ] [Fintype ι] (J : ℕ) (hJ : 0 < J)
    (S : ℕ → κ → ℝ) (f : ℕ → κ → EReal) (hf : ∀ j, j < J → ∀ c, f j c = ((S j c : ℝ) : EReal))
    (e : Fin J × κ ≃ ι) (g : ι → EReal) (hg : ∀ (j : Fin J) (c : κ), g (e (j, c)) = ((S j.val c : ℝ) : EReal))
    (d : ℝ) :
    streamed (d : EReal) (state f J) = twoPass g (d : EReal) := by
  obtain ⟨n, rfl⟩ : ∃ n, J = n + 1 := ⟨J - 1, by omega⟩
  obtain ⟨M, hMle, hMex, hst⟩ := state_inv (n + 1) S f hf n (by omega)
  -- the row as a real family over the flat index
  let s : ι → ℝ := fun i => S (e.symm i).1.val (e.symm i).2
  have hgs : g = fun i => ((s i : ℝ) : EReal) := by
    funext i
    have := hg (e.symm i).1 (e.symm i).2
    rw [Prod.mk.eta, Equiv.apply_symm_apply] at this
    exact this
  have hsle : ∀ i, s i ≤ M := fun i => hMle _ (e.symm i).1.isLt _
  have hsex : ∃ i, s i = M := by
    obtain ⟨j, hj, c, hc⟩ := hMex
    refine ⟨e (⟨j, hj⟩, c), ?_⟩
    show S (e.symm (e (⟨j, hj⟩, c))).1.val (e.symm (e (⟨j, hj⟩, c))).2 = M
    rw [Equiv.symm_apply_apply]
    exact hc
  -- the flat sum of exponentials is the tiled one
  have hsum : ∑ i, Real.exp (s i - M) = ∑ j ∈ Finset.range (n + 1), ∑ c, Real.exp (S j c - M) := by
    rw [← Equiv.sum_comp e (fun i => Real.exp (s i - M)), Fintype.sum_prod_type,
      ← Fin.sum_univ_eq_sum_range (fun j => ∑ c, Real.exp (S j c - M)) (n + 1)]
    apply Finset.sum_congr rfl
    intro j _
    apply Finset.sum_congr rfl
    intro c _
    show Real.exp (S (e.symm (e (j, c))).1.val (e.symm (e (j, c))).2 - M) = _
    rw [Equiv.symm_apply_apply]
  have hpos : 0 < ∑ j ∈ Finset.range (n + 1), ∑ c, Real.exp (S j c - M) := by
    rw [← hsum]
    obtain ⟨i0, _⟩ := hsex
    exact Finset.sum_pos (fun i _ => Real.exp_pos _) ⟨i0, Finset.mem_univ i0⟩
  rw [hst, streamed_coe d M _ hpos, hgs, twoPass_coe s M hsle hsex d, hsum]
  congr 1
  ring

end Lse

end
-- ==== Proof.Bridge.lean ====
/-
  The two spellings of the loss agree when the inputs are reals and the noise probabilities are positive.

  The product query `x * 1 + (-(log y))` is the quotient query `x / 1 - log y` on every extended real. With real
  logits and positive real noise probabilities the query entries are reals, so with real targets every score is a real;
  on a row of real scores the streaming log-sum-exp over 16 tiles of 1024 columns and the two-pass log-softmax of the
  whole row give the same value (Lse.streamed_eq_twoPass), column `1024 * j + c` of the row being entry `c` of tile `j`.
-/
import proofs.«137579_j91285234909639_2_alg».proof.Proof.LossSpec
import proofs.«137579_j91285234909639_2_alg».proof.Proof.LibOnlineLse
import Idealize.ShloMosaic.PureOps.IdealRules
import Idealize.ShloMosaic.PureOps.Ideal.Laws

noncomputable section

open scoped BigOperators

namespace Cert.LossSpec

open Idealize.ShloMosaic Idealize.ShloMosaic.ValueIdx

/-- The word of 1.0 denotes 1. -/
theorem ofBits_one : Ideal.ofBits .f32 0x3F800000#32 = 1 := IdealRules.sign_bit.ideal_onePat .f32

/-- A quotient by 1 is the dividend. -/
theorem div_one' (x : EReal) : Ideal.div x 1 = x := by
  rw [← EReal.coe_one, Ideal.div_coe one_ne_zero]
  simp

/-- The product query is the quotient query, on every extended real. -/
theorem query_eq (x0 : SX.Idx → EReal) (x2 : SN.Idx → EReal) : queryMul x0 x2 = queryDiv x0 x2 := by
  funext i
  unfold queryMul queryDiv
  rw [ofBits_one, mul_one, div_one', sub_eq_add_neg]

/-- Tile `j`, entry `c` is column `1024 * j + c`: the 16 tiles of 1024 columns are the 16384 columns. -/
def tileEquiv : Fin 16 × Fin 1024 ≃ Fin 16384 := finProdFinEquiv.trans (finCongr (by norm_num))

theorem tileEquiv_apply (j : Fin 16) (c : Fin 1024) : tileEquiv (j, c) = colAt j.val c := by
  apply Fin.ext
  show c.val + 1024 * j.val = (1024 * j.val + c.val) % 16384
  have := j.isLt; have := c.isLt; omega

/-- THE BRIDGE: with real logits and targets and positive real noise probabilities, the streamed loss is the
    two-pass loss. -/
theorem lossStreamed_eq_lossTwoPass (x0 x1 : SX.Idx → EReal) (x2 : SN.Idx → EReal)
    (h0 : ∀ i, ∃ r : ℝ, x0 i = (r : EReal)) (h1 : ∀ i, ∃ r : ℝ, x1 i = (r : EReal))
    (h2 : ∀ i, ∃ r : ℝ, x2 i = (r : EReal)) (hp : ∀ i, 0 < x2 i) :
    lossStreamed x0 x1 x2 = lossTwoPass x0 x1 x2 := by
  choose a0 ha0 using h0
  choose a1 ha1 using h1
  choose a2 ha2 using h2
  have hpos : ∀ i, 0 < a2 i := fun i => by
    have h := hp i
    rw [ha2 i] at h
    exact_mod_cast h
  unfold lossStreamed lossTwoPass
  rw [query_eq]
  refine congrArg negMean (funext fun p => ?_)
  -- the query and the scores are reals
  have hq : ∀ i, queryDiv x0 x2 i = ((a0 i - Real.log (a2 (ix1 (i 1))) : ℝ) : EReal) := by
    intro i
    unfold queryDiv
    rw [ha0 i, ha2, ofBits_one, div_one', Ideal.log_coe, if_neg (not_le.mpr (hpos _)), ← EReal.coe_sub]
  have hs : ∀ a b : Fin 16384, score (queryDiv x0 x2) x1 a b
      = ((∑ k : Fin 64, (a0 (ix2 a k) - Real.log (a2 (ix1 k))) * a1 (ix2 b k) : ℝ) : EReal) := by
    intro a b
    unfold score
    rw [Lse.coe_sum]
    refine Finset.sum_congr rfl fun k _ => ?_
    rw [hq, ha1, EReal.coe_mul]
  rw [hs p p]
  exact Lse.streamed_eq_twoPass 16 (by norm_num)
    (fun j c => ∑ k : Fin 64, (a0 (ix2 p k) - Real.log (a2 (ix1 k))) * a1 (ix2 (colAt j c) k))
    (fun j c => score (queryDiv x0 x2) x1 p (colAt j c)) (fun j _ c => hs p (colAt j c))
    tileEquiv (fun col => score (queryDiv x0 x2) x1 p col)
    (fun j c => by rw [tileEquiv_apply]; exact hs p (colAt j.val c)) _

end Cert.LossSpec

end
-- ==== Proof.RefRun.lean ====
/-
  The reference program's run.

  @main is a straight line of 58 host operations once its two calls (the log-softmax and the take-along-axis) are
  unfolded at their call sites. The operations are listed twice: as the program spells them (an inlined call's
  operations act on the call's typed references, whose values are carried through identity transports) and over the
  plain references; the two lists are equal operation by operation, and @main is the sequence of either. Folding
  the plain list over the launch contents, each operation rewriting its own result buffer, leaves at the result buffer
  the composition of the stage functions of the read module, and leaves the three arguments as they were. Hence
  every weakly fair execution of @main terminates with the result at that stage function of the arguments' launch
  contents and the arguments unchanged.
-/
import proofs.«137579_j91285234909639_2_alg».proof.Proof.RefReadP

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 58 operations as the program spells them: an inlined call's operations over the call's typed references. -/
abbrev opsT : List (HloOp τ sig (Elt F)) :=
  [ nullary main_cst (constant S_ .f32 0x3F800000#32),
    unary main_cst main_v0 (broadcastInDim S16384x64 ![] bcast_S_S16384x64 : (⟨S_, .f32⟩ : BufTy).Contents (Elt F) → (⟨S16384x64, .f32⟩ : BufTy).Contents (Elt F)),
    binary main_arg0 main_v0 main_v1 (Host.divf : (⟨S16384x64, .f32⟩ : BufTy).Contents (Elt F) → (⟨S16384x64, .f32⟩ : BufTy).Contents (Elt F) → (⟨S16384x64, .f32⟩ : BufTy).Contents (Elt F)),
    unary main_arg2 main_v2 (Host.log : (⟨S64, .f32⟩ : BufTy).Contents (Elt F) → (⟨S64, .f32⟩ : BufTy).Contents (Elt F)),
    unary main_v2 main_v3 (broadcastInDim S1x64 ![1] bcast_S64_S1x64_1 : (⟨S64, .f32⟩ : BufTy).Contents (Elt F) → (⟨S1x64, .f32⟩ : BufTy).Contents (Elt F)),
    unary main_v3 main_v4 (broadcastInDim S16384x64 ![0, 1] bcast_S1x64_S16384x64_0_1 : (⟨S1x64, .f32⟩ : BufTy).Contents (Elt F) → (⟨S16384x64, .f32⟩ : BufTy).Contents (Elt F)),
    binary main_v1 main_v4 main_v5 (subf : (⟨S16384x64, .f32⟩ : BufTy).Contents (Elt F) → (⟨S16384x64, .f32⟩ : BufTy).Contents (Elt F) → (⟨S16384x64, .f32⟩ : BufTy).Contents (Elt F)),
    binary main_v5 main_arg1 main_v6 ((fun l r => Host.dotGeneral dot_S16384x64_S16384x64_S16384x16384_1_1_0_0_n_n none l r) : (⟨S16384x64, .f32⟩ : BufTy).Contents (Elt F) → (⟨S16384x64, .f32⟩ : BufTy).Contents (Elt F) → (⟨S16384x16384, .f32⟩ : BufTy).Contents (Elt F)),
    nullary main_cst_0 (constant S_ .f32 0xFF800000#32),
    binary main_v6 main_cst_0 main_v7 ((fun x v => Host.reduce FloatOps.maximumf x v reducesTo_S16384x16384_S16384_d1 h_S_) : (⟨S16384x16384, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    unary main_v8 main_v9 (broadcastInDim S16384x16384 ![0, 1] bcast_S16384x1_S16384x16384_0_1 : (⟨S16384x1, .f32⟩ : BufTy).Contents (Elt F) → (⟨S16384x16384, .f32⟩ : BufTy).Contents (Elt F)),
    binary main_v6 main_v9 main_v10 (subf : (⟨S16384x16384, .f32⟩ : BufTy).Contents (Elt F) → (⟨S16384x16384, .f32⟩ : BufTy).Contents (Elt F) → (⟨S16384x16384, .f32⟩ : BufTy).Contents (Elt F)),
    TRef.nullary (TRef.of (T := ⟨S_, .f32⟩) main_call0_cst) (constant S_ .f32 0xFF800000#32),
    TRef.binary (TRef.of (T := ⟨S16384x16384, .f32⟩) main_v10) (TRef.of (T := ⟨S_, .f32⟩) main_call0_cst) (TRef.of (T := ⟨S16384, .f32⟩) main_call0_v0) (fun x v => Host.reduce FloatOps.maximumf x v reducesTo_S16384x16384_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x16384, .f32⟩) main_call0_v4) (broadcastInDim S16384x16384 ![0, 1] bcast_S16384x1_S16384x16384_0_1),
    TRef.binary (TRef.of (T := ⟨S16384x16384, .f32⟩) main_v10) (TRef.of (T := ⟨S16384x16384, .f32⟩) main_call0_v4) (TRef.of (T := ⟨S16384x16384, .f32⟩) main_call0_v5) subf,
    TRef.unary (TRef.of (T := ⟨S16384x16384, .f32⟩) main_call0_v5) (TRef.of (T := ⟨S16384x16384, .f32⟩) main_call0_v6) Host.exp,
    TRef.nullary (TRef.of (T := ⟨S_, .f32⟩) main_call0_cst_1) (constant S_ .f32 0x00000000#32),
    TRef.binary (TRef.of (T := ⟨S16384x16384, .f32⟩) main_call0_v6) (TRef.of (T := ⟨S_, .f32⟩) main_call0_cst_1) (TRef.of (T := ⟨S16384, .f32⟩) main_call0_v7) (fun x v => Host.reduceAdd x v reducesTo_S16384x16384_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x16384, .f32⟩) main_call0_v10) (broadcastInDim S16384x16384 ![0, 1] bcast_S16384x1_S16384x16384_0_1),
    TRef.binary (TRef.of (T := ⟨S16384x16384, .f32⟩) main_call0_v5) (TRef.of (T := ⟨S16384x16384, .f32⟩) main_call0_v10) (TRef.of (T := ⟨S16384x16384, .f32⟩) main_v11) subf,
    nullary main_v12 (iotaInDim S16384 32 0),
    unary main_v12 main_v13 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16384x1, .i32⟩) main_call1_v0) (broadcastInDim S16384x1 ![] bcast_S_S16384x1),
    TRef.binary (TRef.of (T := ⟨S16384x1, .i32⟩) main_v13) (TRef.of (T := ⟨S16384x1, .i32⟩) main_call1_v0) (TRef.of (T := ⟨S16384x1, .i1⟩) main_call1_v1) (cmpi .slt),
    TRef.nullary (TRef.of (T := ⟨S_, .i32⟩) main_call1_c_0) (constantI S_ 32 16384#32),
    TRef.unary (TRef.of (T := ⟨S_, .i32⟩) main_call1_c_0) (TRef.of (T := ⟨S16384x1, .i32⟩) main_call1_v2) (broadcastInDim S16384x1 ![] bcast_S_S16384x1),
    TRef.binary (TRef.of (T := ⟨S16384x1, .i32⟩) main_v13) (TRef.of (T := ⟨S16384x1, .i32⟩) main_call1_v2) (TRef.of (T := ⟨S16384x1, .i32⟩) main_call1_v3) addi,
    TRef.ternary (TRef.of (T := ⟨S16384x1, .i1⟩) main_call1_v1) (TRef.of (T := ⟨S16384x1, .i32⟩) main_call1_v3) (TRef.of (T := ⟨S16384x1, .i32⟩) main_v13) (TRef.of (T := ⟨S16384x1, .i32⟩) main_call1_v4) select,
    TRef.reshape (TRef.of (T := ⟨S16384x1, .i32⟩) main_call1_v4) (TRef.of (T := ⟨S16384x1x1, .i32⟩) main_call1_v5) rfl shapeCasts_S16384x1_S16384x1x1,
    TRef.nullary (TRef.of (T := ⟨S1, .i32⟩) main_call1_c_1) (constantI S1 32 16383#32),
    TRef.nullary (TRef.of (T := ⟨S_, .i32⟩) main_call1_c_2) (constantI S_ 32 0#32),
    TRef.unary (TRef.of (T := ⟨S_, .i32⟩) main_call1_c_2) (TRef.of (T := ⟨S16384x1x1, .i32⟩) main_call1_v6) (broadcastInDim S16384x1x1 ![] bcast_S_S16384x1x1),
    TRef.binary (TRef.of (T := ⟨S16384x1x1, .i32⟩) main_call1_v5) (TRef.of (T := ⟨S16384x1x1, .i32⟩) main_call1_v6) (TRef.of (T := ⟨S16384x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16384x1x1, .i32⟩) main_call1_v9) (broadcastInDim S16384x1x1 ![0, 1, 2] bcast_S1x1x1_S16384x1x1_0_1_2),
    TRef.binary (TRef.of (T := ⟨S16384x1x1, .i32⟩) main_call1_v5) (TRef.of (T := ⟨S16384x1x1, .i32⟩) main_call1_v9) (TRef.of (T := ⟨S16384x1x1, .i1⟩) main_call1_v10) (cmpi .sle),
    TRef.binary (TRef.of (T := ⟨S16384x1x1, .i1⟩) main_call1_v7) (TRef.of (T := ⟨S16384x1x1, .i1⟩) main_call1_v10) (TRef.of (T := ⟨S16384x1x1, .i1⟩) main_call1_v11) andi,
    TRef.nullary (TRef.of (T := ⟨S_, .i1⟩) main_call1_c_3) (constantI S_ 1 1#1),
    TRef.binary (TRef.of (T := ⟨S16384x1x1, .i1⟩) main_call1_v11) (TRef.of (T := ⟨S_, .i1⟩) main_call1_c_3) (TRef.of (T := ⟨S16384x1, .i1⟩) main_call1_v12) (fun x v => Host.reduce IntOp.andi x v reducesTo_S16384x1x1_S16384x1_d2 h_S_),
    TRef.binary (TRef.of (T := ⟨S16384x16384, .f32⟩) main_v11) (TRef.of (T := ⟨S16384x1x1, .i32⟩) main_call1_v5) (TRef.of (T := ⟨S16384x1, .f32⟩) main_call1_v13) (fun x i => Host.gather gather_S16384x16384_S16384x1x1_S16384x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16384x1, .f32⟩) main_call1_v14) (broadcastInDim S16384x1 ![] bcast_S_S16384x1),
    TRef.ternary (TRef.of (T := ⟨S16384x1, .i1⟩) main_call1_v12) (TRef.of (T := ⟨S16384x1, .f32⟩) main_call1_v13) (TRef.of (T := ⟨S16384x1, .f32⟩) main_call1_v14) (TRef.of (T := ⟨S16384x1, .f32⟩) main_v14) select,
    reshape main_v14 main_v15 rfl shapeCasts_S16384x1_S16384,
    nullary main_cst_1 (constant S_ .f32 0x00000000#32),
    binary main_v15 main_cst_1 main_v16 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_2 (constant S_ .f32 0x46800000#32),
    binary main_v16 main_cst_2 main_v17 (Host.divf : (⟨S_, .f32⟩ : BufTy).Contents (Elt F) → (⟨S_, .f32⟩ : BufTy).Contents (Elt F) → (⟨S_, .f32⟩ : BufTy).Contents (Elt F)),
    unary main_v17 main_v18 (Host.negf : (⟨S_, .f32⟩ : BufTy).Contents (Elt F) → (⟨S_, .f32⟩ : BufTy).Contents (Elt F)) ]

/-- The same 58 operations over the plain references. -/
abbrev ops : List (HloOp τ sig (Elt F)) :=
  [ nullary main_cst (constant S_ .f32 0x3F800000#32),
    unary main_cst main_v0 (broadcastInDim S16384x64 ![] bcast_S_S16384x64 : (⟨S_, .f32⟩ : BufTy).Contents (Elt F) → (⟨S16384x64, .f32⟩ : BufTy).Contents (Elt F)),
    binary main_arg0 main_v0 main_v1 (Host.divf : (⟨S16384x64, .f32⟩ : BufTy).Contents (Elt F) → (⟨S16384x64, .f32⟩ : BufTy).Contents (Elt F) → (⟨S16384x64, .f32⟩ : BufTy).Contents (Elt F)),
    unary main_arg2 main_v2 (Host.log : (⟨S64, .f32⟩ : BufTy).Contents (Elt F) → (⟨S64, .f32⟩ : BufTy).Contents (Elt F)),
    unary main_v2 main_v3 (broadcastInDim S1x64 ![1] bcast_S64_S1x64_1 : (⟨S64, .f32⟩ : BufTy).Contents (Elt F) → (⟨S1x64, .f32⟩ : BufTy).Contents (Elt F)),
    unary main_v3 main_v4 (broadcastInDim S16384x64 ![0, 1] bcast_S1x64_S16384x64_0_1 : (⟨S1x64, .f32⟩ : BufTy).Contents (Elt F) → (⟨S16384x64, .f32⟩ : BufTy).Contents (Elt F)),
    binary main_v1 main_v4 main_v5 (subf : (⟨S16384x64, .f32⟩ : BufTy).Contents (Elt F) → (⟨S16384x64, .f32⟩ : BufTy).Contents (Elt F) → (⟨S16384x64, .f32⟩ : BufTy).Contents (Elt F)),
    binary main_v5 main_arg1 main_v6 ((fun l r => Host.dotGeneral dot_S16384x64_S16384x64_S16384x16384_1_1_0_0_n_n none l r) : (⟨S16384x64, .f32⟩ : BufTy).Contents (Elt F) → (⟨S16384x64, .f32⟩ : BufTy).Contents (Elt F) → (⟨S16384x16384, .f32⟩ : BufTy).Contents (Elt F)),
    nullary main_cst_0 (constant S_ .f32 0xFF800000#32),
    binary main_v6 main_cst_0 main_v7 ((fun x v => Host.reduce FloatOps.maximumf x v reducesTo_S16384x16384_S16384_d1 h_S_) : (⟨S16384x16384, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    unary main_v8 main_v9 (broadcastInDim S16384x16384 ![0, 1] bcast_S16384x1_S16384x16384_0_1 : (⟨S16384x1, .f32⟩ : BufTy).Contents (Elt F) → (⟨S16384x16384, .f32⟩ : BufTy).Contents (Elt F)),
    binary main_v6 main_v9 main_v10 (subf : (⟨S16384x16384, .f32⟩ : BufTy).Contents (Elt F) → (⟨S16384x16384, .f32⟩ : BufTy).Contents (Elt F) → (⟨S16384x16384, .f32⟩ : BufTy).Contents (Elt F)),
    nullary main_call0_cst ((constant S_ .f32 0xFF800000#32) : (⟨S_, .f32⟩ : BufTy).Contents (Elt F)),
    binary main_v10 main_call0_cst main_call0_v0 ((fun x v => Host.reduce FloatOps.maximumf x v reducesTo_S16384x16384_S16384_d1 h_S_) : (⟨S16384x16384, .f32⟩ : BufTy).Contents (Elt F) → (⟨S_, .f32⟩ : BufTy).Contents (Elt F) → (⟨S16384, .f32⟩ : BufTy).Contents (Elt F)),
    nullary main_call0_cst_0 ((constant S_ .f32 0xFF800000#32) : (⟨S_, .f32⟩ : BufTy).Contents (Elt F)),
    unary main_call0_cst_0 main_call0_v1 ((broadcastInDim S16384 ![] bcast_S_S16384) : (⟨S_, .f32⟩ : BufTy).Contents (Elt F) → (⟨S16384, .f32⟩ : BufTy).Contents (Elt F)),
    binary main_call0_v1 main_call0_v0 main_call0_v2 (maximumf : (⟨S16384, .f32⟩ : BufTy).Contents (Elt F) → (⟨S16384, .f32⟩ : BufTy).Contents (Elt F) → (⟨S16384, .f32⟩ : BufTy).Contents (Elt F)),
    unary main_call0_v2 main_call0_v3 ((broadcastInDim S16384x1 ![0] bcast_S16384_S16384x1_0) : (⟨S16384, .f32⟩ : BufTy).Contents (Elt F) → (⟨S16384x1, .f32⟩ : BufTy).Contents (Elt F)),
    unary main_call0_v3 main_call0_v4 ((broadcastInDim S16384x16384 ![0, 1] bcast_S16384x1_S16384x16384_0_1) : (⟨S16384x1, .f32⟩ : BufTy).Contents (Elt F) → (⟨S16384x16384, .f32⟩ : BufTy).Contents (Elt F)),
    binary main_v10 main_call0_v4 main_call0_v5 (subf : (⟨S16384x16384, .f32⟩ : BufTy).Contents (Elt F) → (⟨S16384x16384, .f32⟩ : BufTy).Contents (Elt F) → (⟨S16384x16384, .f32⟩ : BufTy).Contents (Elt F)),
    unary main_call0_v5 main_call0_v6 (Host.exp : (⟨S16384x16384, .f32⟩ : BufTy).Contents (Elt F) → (⟨S16384x16384, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S16384x16384_S16384_d1 h_S_) : (⟨S16384x16384, .f32⟩ : BufTy).Contents (Elt F) → (⟨S_, .f32⟩ : BufTy).Contents (Elt F) → (⟨S16384, .f32⟩ : BufTy).Contents (Elt F)),
    unary main_call0_v7 main_call0_v8 ((broadcastInDim S16384x1 ![0] bcast_S16384_S16384x1_0) : (⟨S16384, .f32⟩ : BufTy).Contents (Elt F) → (⟨S16384x1, .f32⟩ : BufTy).Contents (Elt F)),
    unary main_call0_v8 main_call0_v9 (Host.log : (⟨S16384x1, .f32⟩ : BufTy).Contents (Elt F) → (⟨S16384x1, .f32⟩ : BufTy).Contents (Elt F)),
    unary main_call0_v9 main_call0_v10 ((broadcastInDim S16384x16384 ![0, 1] bcast_S16384x1_S16384x16384_0_1) : (⟨S16384x1, .f32⟩ : BufTy).Contents (Elt F) → (⟨S16384x16384, .f32⟩ : BufTy).Contents (Elt F)),
    binary main_call0_v5 main_call0_v10 main_v11 (subf : (⟨S16384x16384, .f32⟩ : BufTy).Contents (Elt F) → (⟨S16384x16384, .f32⟩ : BufTy).Contents (Elt F) → (⟨S16384x16384, .f32⟩ : BufTy).Contents (Elt F)),
    nullary main_v12 (iotaInDim S16384 32 0),
    unary main_v12 main_v13 (broadcastInDim S16384x1 ![0] bcast_S16384_S16384x1_0 : (⟨S16384, .i32⟩ : BufTy).Contents (Elt F) → (⟨S16384x1, .i32⟩ : BufTy).Contents (Elt F)),
    nullary main_call1_c ((constantI S_ 32 0#32) : (⟨S_, .i32⟩ : BufTy).Contents (Elt F)),
    unary main_call1_c main_call1_v0 ((broadcastInDim S16384x1 ![] bcast_S_S16384x1) : (⟨S_, .i32⟩ : BufTy).Contents (Elt F) → (⟨S16384x1, .i32⟩ : BufTy).Contents (Elt F)),
    binary main_v13 main_call1_v0 main_call1_v1 ((cmpi .slt) : (⟨S16384x1, .i32⟩ : BufTy).Contents (Elt F) → (⟨S16384x1, .i32⟩ : BufTy).Contents (Elt F) → (⟨S16384x1, .i1⟩ : BufTy).Contents (Elt F)),
    nullary main_call1_c_0 ((constantI S_ 32 16384#32) : (⟨S_, .i32⟩ : BufTy).Contents (Elt F)),
    unary main_call1_c_0 main_call1_v2 ((broadcastInDim S16384x1 ![] bcast_S_S16384x1) : (⟨S_, .i32⟩ : BufTy).Contents (Elt F) → (⟨S16384x1, .i32⟩ : BufTy).Contents (Elt F)),
    binary main_v13 main_call1_v2 main_call1_v3 (addi : (⟨S16384x1, .i32⟩ : BufTy).Contents (Elt F) → (⟨S16384x1, .i32⟩ : BufTy).Contents (Elt F) → (⟨S16384x1, .i32⟩ : BufTy).Contents (Elt F)),
    ternary main_call1_v1 main_call1_v3 main_v13 main_call1_v4 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    reshape main_call1_v4 main_call1_v5 rfl shapeCasts_S16384x1_S16384x1x1,
    nullary main_call1_c_1 ((constantI S1 32 16383#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S16384x1x1 ![] bcast_S_S16384x1x1) : (⟨S_, .i32⟩ : BufTy).Contents (Elt F) → (⟨S16384x1x1, .i32⟩ : BufTy).Contents (Elt F)),
    binary main_call1_v5 main_call1_v6 main_call1_v7 ((cmpi .sge) : (⟨S16384x1x1, .i32⟩ : BufTy).Contents (Elt F) → (⟨S16384x1x1, .i32⟩ : BufTy).Contents (Elt F) → (⟨S16384x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S16384x1x1 ![0, 1, 2] bcast_S1x1x1_S16384x1x1_0_1_2) : (⟨S1x1x1, .i32⟩ : BufTy).Contents (Elt F) → (⟨S16384x1x1, .i32⟩ : BufTy).Contents (Elt F)),
    binary main_call1_v5 main_call1_v9 main_call1_v10 ((cmpi .sle) : (⟨S16384x1x1, .i32⟩ : BufTy).Contents (Elt F) → (⟨S16384x1x1, .i32⟩ : BufTy).Contents (Elt F) → (⟨S16384x1x1, .i1⟩ : BufTy).Contents (Elt F)),
    binary main_call1_v7 main_call1_v10 main_call1_v11 (andi : (⟨S16384x1x1, .i1⟩ : BufTy).Contents (Elt F) → (⟨S16384x1x1, .i1⟩ : BufTy).Contents (Elt F) → (⟨S16384x1x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S16384x1x1_S16384x1_d2 h_S_) : (⟨S16384x1x1, .i1⟩ : BufTy).Contents (Elt F) → (⟨S_, .i1⟩ : BufTy).Contents (Elt F) → (⟨S16384x1, .i1⟩ : BufTy).Contents (Elt F)),
    binary main_v11 main_call1_v5 main_call1_v13 ((fun x i => Host.gather gather_S16384x16384_S16384x1x1_S16384x1_n_1_0_0_1_2_11 x i) : (⟨S16384x16384, .f32⟩ : BufTy).Contents (Elt F) → (⟨S16384x1x1, .i32⟩ : BufTy).Contents (Elt F) → (⟨S16384x1, .f32⟩ : BufTy).Contents (Elt F)),
    nullary main_call1_cst ((constant S_ .f32 0x7FC00000#32) : (⟨S_, .f32⟩ : BufTy).Contents (Elt F)),
    unary main_call1_cst main_call1_v14 ((broadcastInDim S16384x1 ![] bcast_S_S16384x1) : (⟨S_, .f32⟩ : BufTy).Contents (Elt F) → (⟨S16384x1, .f32⟩ : BufTy).Contents (Elt F)),
    ternary main_call1_v12 main_call1_v13 main_call1_v14 main_v14 (select : (⟨S16384x1, .i1⟩ : BufTy).Contents (Elt F) → (⟨S16384x1, .f32⟩ : BufTy).Contents (Elt F) → (⟨S16384x1, .f32⟩ : BufTy).Contents (Elt F) → (⟨S16384x1, .f32⟩ : BufTy).Contents (Elt F)),
    reshape main_v14 main_v15 rfl shapeCasts_S16384x1_S16384,
    nullary main_cst_1 (constant S_ .f32 0x00000000#32),
    binary main_v15 main_cst_1 main_v16 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_2 (constant S_ .f32 0x46800000#32),
    binary main_v16 main_cst_2 main_v17 (Host.divf : (⟨S_, .f32⟩ : BufTy).Contents (Elt F) → (⟨S_, .f32⟩ : BufTy).Contents (Elt F) → (⟨S_, .f32⟩ : BufTy).Contents (Elt F)),
    unary main_v17 main_v18 (Host.negf : (⟨S_, .f32⟩ : BufTy).Contents (Elt F) → (⟨S_, .f32⟩ : BufTy).Contents (Elt F)) ]

set_option maxRecDepth 8192 in
theorem main_eqT (c : Dev nD) : main (F := F) c = seq opsT := rfl

-- The two reductions and the gather are kept folded while terms are compared: the comparison never looks inside them.
attribute [local irreducible] Host.reduce Host.gather

private theorem e13 : (TRef.nullary (TRef.of (T := ⟨S_, .f32⟩) main_call0_cst) (constant S_ .f32 0xFF800000#32) : HloOp τ sig (Elt F)) = nullary main_call0_cst ((constant S_ .f32 0xFF800000#32) : (⟨S_, .f32⟩ : BufTy).Contents (Elt F)) := rfl
private theorem e14 : (TRef.binary (TRef.of (T := ⟨S16384x16384, .f32⟩) main_v10) (TRef.of (T := ⟨S_, .f32⟩) main_call0_cst) (TRef.of (T := ⟨S16384, .f32⟩) main_call0_v0) (fun x v => Host.reduce FloatOps.maximumf x v reducesTo_S16384x16384_S16384_d1 h_S_) : HloOp τ sig (Elt F)) = binary main_v10 main_call0_cst main_call0_v0 ((fun x v => Host.reduce FloatOps.maximumf x v reducesTo_S16384x16384_S16384_d1 h_S_) : (⟨S16384x16384, .f32⟩ : BufTy).Contents (Elt F) → (⟨S_, .f32⟩ : BufTy).Contents (Elt F) → (⟨S16384, .f32⟩ : BufTy).Contents (Elt F)) := rfl
private theorem e15 : (TRef.nullary (TRef.of (T := ⟨S_, .f32⟩) main_call0_cst_0) (constant S_ .f32 0xFF800000#32) : HloOp τ sig (Elt F)) = nullary main_call0_cst_0 ((constant S_ .f32 0xFF800000#32) : (⟨S_, .f32⟩ : BufTy).Contents (Elt F)) := rfl
private theorem e16 : (TRef.unary (TRef.of (T := ⟨S_, .f32⟩) main_call0_cst_0) (TRef.of (T := ⟨S16384, .f32⟩) main_call0_v1) (broadcastInDim S16384 ![] bcast_S_S16384) : HloOp τ sig (Elt F)) = unary main_call0_cst_0 main_call0_v1 ((broadcastInDim S16384 ![] bcast_S_S16384) : (⟨S_, .f32⟩ : BufTy).Contents (Elt F) → (⟨S16384, .f32⟩ : BufTy).Contents (Elt F)) := rfl
private theorem e17 : (TRef.binary (TRef.of (T := ⟨S16384, .f32⟩) main_call0_v1) (TRef.of (T := ⟨S16384, .f32⟩) main_call0_v0) (TRef.of (T := ⟨S16384, .f32⟩) main_call0_v2) maximumf : HloOp τ sig (Elt F)) = binary main_call0_v1 main_call0_v0 main_call0_v2 (maximumf : (⟨S16384, .f32⟩ : BufTy).Contents (Elt F) → (⟨S16384, .f32⟩ : BufTy).Contents (Elt F) → (⟨S16384, .f32⟩ : BufTy).Contents (Elt F)) := rfl
private theorem e18 : (TRef.unary (TRef.of (T := ⟨S16384, .f32⟩) main_call0_v2) (TRef.of (T := ⟨S16384x1, .f32⟩) main_call0_v3) (broadcastInDim S16384x1 ![0] bcast_S16384_S16384x1_0) : HloOp τ sig (Elt F)) = unary main_call0_v2 main_call0_v3 ((broadcastInDim S16384x1 ![0] bcast_S16384_S16384x1_0) : (⟨S16384, .f32⟩ : BufTy).Contents (Elt F) → (⟨S16384x1, .f32⟩ : BufTy).Contents (Elt F)) := rfl
private theorem e19 : (TRef.unary (TRef.of (T := ⟨S16384x1, .f32⟩) main_call0_v3) (TRef.of (T := ⟨S16384x16384, .f32⟩) main_call0_v4) (broadcastInDim S16384x16384 ![0, 1] bcast_S16384x1_S16384x16384_0_1) : HloOp τ sig (Elt F)) = unary main_call0_v3 main_call0_v4 ((broadcastInDim S16384x16384 ![0, 1] bcast_S16384x1_S16384x16384_0_1) : (⟨S16384x1, .f32⟩ : BufTy).Contents (Elt F) → (⟨S16384x16384, .f32⟩ : BufTy).Contents (Elt F)) := rfl
private theorem e20 : (TRef.binary (TRef.of (T := ⟨S16384x16384, .f32⟩) main_v10) (TRef.of (T := ⟨S16384x16384, .f32⟩) main_call0_v4) (TRef.of (T := ⟨S16384x16384, .f32⟩) main_call0_v5) subf : HloOp τ sig (Elt F)) = binary main_v10 main_call0_v4 main_call0_v5 (subf : (⟨S16384x16384, .f32⟩ : BufTy).Contents (Elt F) → (⟨S16384x16384, .f32⟩ : BufTy).Contents (Elt F) → (⟨S16384x16384, .f32⟩ : BufTy).Contents (Elt F)) := rfl
private theorem e21 : (TRef.unary (TRef.of (T := ⟨S16384x16384, .f32⟩) main_call0_v5) (TRef.of (T := ⟨S16384x16384, .f32⟩) main_call0_v6) Host.exp : HloOp τ sig (Elt F)) = unary main_call0_v5 main_call0_v6 (Host.exp : (⟨S16384x16384, .f32⟩ : BufTy).Contents (Elt F) → (⟨S16384x16384, .f32⟩ : BufTy).Contents (Elt F)) := rfl
private theorem e22 : (TRef.nullary (TRef.of (T := ⟨S_, .f32⟩) main_call0_cst_1) (constant S_ .f32 0x00000000#32) : HloOp τ sig (Elt F)) = nullary main_call0_cst_1 ((constant S_ .f32 0x00000000#32) : (⟨S_, .f32⟩ : BufTy).Contents (Elt F)) := rfl
private theorem e23 : (TRef.binary (TRef.of (T := ⟨S16384x16384, .f32⟩) main_call0_v6) (TRef.of (T := ⟨S_, .f32⟩) main_call0_cst_1) (TRef.of (T := ⟨S16384, .f32⟩) main_call0_v7) (fun x v => Host.reduceAdd x v reducesTo_S16384x16384_S16384_d1 h_S_) : HloOp τ sig (Elt F)) = binary main_call0_v6 main_call0_cst_1 main_call0_v7 ((fun x v => Host.reduceAdd x v reducesTo_S16384x16384_S16384_d1 h_S_) : (⟨S16384x16384, .f32⟩ : BufTy).Contents (Elt F) → (⟨S_, .f32⟩ : BufTy).Contents (Elt F) → (⟨S16384, .f32⟩ : BufTy).Contents (Elt F)) := rfl
private theorem e24 : (TRef.unary (TRef.of (T := ⟨S16384, .f32⟩) main_call0_v7) (TRef.of (T := ⟨S16384x1, .f32⟩) main_call0_v8) (broadcastInDim S16384x1 ![0] bcast_S16384_S16384x1_0) : HloOp τ sig (Elt F)) = unary main_call0_v7 main_call0_v8 ((broadcastInDim S16384x1 ![0] bcast_S16384_S16384x1_0) : (⟨S16384, .f32⟩ : BufTy).Contents (Elt F) → (⟨S16384x1, .f32⟩ : BufTy).Contents (Elt F)) := rfl
private theorem e25 : (TRef.unary (TRef.of (T := ⟨S16384x1, .f32⟩) main_call0_v8) (TRef.of (T := ⟨S16384x1, .f32⟩) main_call0_v9) Host.log : HloOp τ sig (Elt F)) = unary main_call0_v8 main_call0_v9 (Host.log : (⟨S16384x1, .f32⟩ : BufTy).Contents (Elt F) → (⟨S16384x1, .f32⟩ : BufTy).Contents (Elt F)) := rfl
private theorem e26 : (TRef.unary (TRef.of (T := ⟨S16384x1, .f32⟩) main_call0_v9) (TRef.of (T := ⟨S16384x16384, .f32⟩) main_call0_v10) (broadcastInDim S16384x16384 ![0, 1] bcast_S16384x1_S16384x16384_0_1) : HloOp τ sig (Elt F)) = unary main_call0_v9 main_call0_v10 ((broadcastInDim S16384x16384 ![0, 1] bcast_S16384x1_S16384x16384_0_1) : (⟨S16384x1, .f32⟩ : BufTy).Contents (Elt F) → (⟨S16384x16384, .f32⟩ : BufTy).Contents (Elt F)) := rfl
private theorem e27 : (TRef.binary (TRef.of (T := ⟨S16384x16384, .f32⟩) main_call0_v5) (TRef.of (T := ⟨S16384x16384, .f32⟩) main_call0_v10) (TRef.of (T := ⟨S16384x16384, .f32⟩) main_v11) subf : HloOp τ sig (Elt F)) = binary main_call0_v5 main_call0_v10 main_v11 (subf : (⟨S16384x16384, .f32⟩ : BufTy).Contents (Elt F) → (⟨S16384x16384, .f32⟩ : BufTy).Contents (Elt F) → (⟨S16384x16384, .f32⟩ : BufTy).Contents (Elt F)) := rfl
private theorem e30 : (TRef.nullary (TRef.of (T := ⟨S_, .i32⟩) main_call1_c) (constantI S_ 32 0#32) : HloOp τ sig (Elt F)) = nullary main_call1_c ((constantI S_ 32 0#32) : (⟨S_, .i32⟩ : BufTy).Contents (Elt F)) := rfl
private theorem e31 : (TRef.unary (TRef.of (T := ⟨S_, .i32⟩) main_call1_c) (TRef.of (T := ⟨S16384x1, .i32⟩) main_call1_v0) (broadcastInDim S16384x1 ![] bcast_S_S16384x1) : HloOp τ sig (Elt F)) = unary main_call1_c main_call1_v0 ((broadcastInDim S16384x1 ![] bcast_S_S16384x1) : (⟨S_, .i32⟩ : BufTy).Contents (Elt F) → (⟨S16384x1, .i32⟩ : BufTy).Contents (Elt F)) := rfl
private theorem e32 : (TRef.binary (TRef.of (T := ⟨S16384x1, .i32⟩) main_v13) (TRef.of (T := ⟨S16384x1, .i32⟩) main_call1_v0) (TRef.of (T := ⟨S16384x1, .i1⟩) main_call1_v1) (cmpi .slt) : HloOp τ sig (Elt F)) = binary main_v13 main_call1_v0 main_call1_v1 ((cmpi .slt) : (⟨S16384x1, .i32⟩ : BufTy).Contents (Elt F) → (⟨S16384x1, .i32⟩ : BufTy).Contents (Elt F) → (⟨S16384x1, .i1⟩ : BufTy).Contents (Elt F)) := rfl
private theorem e33 : (TRef.nullary (TRef.of (T := ⟨S_, .i32⟩) main_call1_c_0) (constantI S_ 32 16384#32) : HloOp τ sig (Elt F)) = nullary main_call1_c_0 ((constantI S_ 32 16384#32) : (⟨S_, .i32⟩ : BufTy).Contents (Elt F)) := rfl
private theorem e34 : (TRef.unary (TRef.of (T := ⟨S_, .i32⟩) main_call1_c_0) (TRef.of (T := ⟨S16384x1, .i32⟩) main_call1_v2) (broadcastInDim S16384x1 ![] bcast_S_S16384x1) : HloOp τ sig (Elt F)) = unary main_call1_c_0 main_call1_v2 ((broadcastInDim S16384x1 ![] bcast_S_S16384x1) : (⟨S_, .i32⟩ : BufTy).Contents (Elt F) → (⟨S16384x1, .i32⟩ : BufTy).Contents (Elt F)) := rfl
private theorem e35 : (TRef.binary (TRef.of (T := ⟨S16384x1, .i32⟩) main_v13) (TRef.of (T := ⟨S16384x1, .i32⟩) main_call1_v2) (TRef.of (T := ⟨S16384x1, .i32⟩) main_call1_v3) addi : HloOp τ sig (Elt F)) = binary main_v13 main_call1_v2 main_call1_v3 (addi : (⟨S16384x1, .i32⟩ : BufTy).Contents (Elt F) → (⟨S16384x1, .i32⟩ : BufTy).Contents (Elt F) → (⟨S16384x1, .i32⟩ : BufTy).Contents (Elt F)) := rfl
private theorem e36 : (TRef.ternary (TRef.of (T := ⟨S16384x1, .i1⟩) main_call1_v1) (TRef.of (T := ⟨S16384x1, .i32⟩) main_call1_v3) (TRef.of (T := ⟨S16384x1, .i32⟩) main_v13) (TRef.of (T := ⟨S16384x1, .i32⟩) main_call1_v4) select : HloOp τ sig (Elt F)) = ternary main_call1_v1 main_call1_v3 main_v13 main_call1_v4 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)) := rfl
private theorem e37 : (TRef.reshape (TRef.of (T := ⟨S16384x1, .i32⟩) main_call1_v4) (TRef.of (T := ⟨S16384x1x1, .i32⟩) main_call1_v5) rfl shapeCasts_S16384x1_S16384x1x1 : HloOp τ sig (Elt F)) = reshape main_call1_v4 main_call1_v5 rfl shapeCasts_S16384x1_S16384x1x1 := rfl
private theorem e38 : (TRef.nullary (TRef.of (T := ⟨S1, .i32⟩) main_call1_c_1) (constantI S1 32 16383#32) : HloOp τ sig (Elt F)) = nullary main_call1_c_1 ((constantI S1 32 16383#32) : (⟨S1, .i32⟩ : BufTy).Contents (Elt F)) := rfl
private theorem e39 : (TRef.nullary (TRef.of (T := ⟨S_, .i32⟩) main_call1_c_2) (constantI S_ 32 0#32) : HloOp τ sig (Elt F)) = nullary main_call1_c_2 ((constantI S_ 32 0#32) : (⟨S_, .i32⟩ : BufTy).Contents (Elt F)) := rfl
private theorem e40 : (TRef.unary (TRef.of (T := ⟨S_, .i32⟩) main_call1_c_2) (TRef.of (T := ⟨S16384x1x1, .i32⟩) main_call1_v6) (broadcastInDim S16384x1x1 ![] bcast_S_S16384x1x1) : HloOp τ sig (Elt F)) = unary main_call1_c_2 main_call1_v6 ((broadcastInDim S16384x1x1 ![] bcast_S_S16384x1x1) : (⟨S_, .i32⟩ : BufTy).Contents (Elt F) → (⟨S16384x1x1, .i32⟩ : BufTy).Contents (Elt F)) := rfl
private theorem e41 : (TRef.binary (TRef.of (T := ⟨S16384x1x1, .i32⟩) main_call1_v5) (TRef.of (T := ⟨S16384x1x1, .i32⟩) main_call1_v6) (TRef.of (T := ⟨S16384x1x1, .i1⟩) main_call1_v7) (cmpi .sge) : HloOp τ sig (Elt F)) = binary main_call1_v5 main_call1_v6 main_call1_v7 ((cmpi .sge) : (⟨S16384x1x1, .i32⟩ : BufTy).Contents (Elt F) → (⟨S16384x1x1, .i32⟩ : BufTy).Contents (Elt F) → (⟨S16384x1x1, .i1⟩ : BufTy).Contents (Elt F)) := rfl
private theorem e42 : (TRef.unary (TRef.of (T := ⟨S1, .i32⟩) main_call1_c_1) (TRef.of (T := ⟨S1x1x1, .i32⟩) main_call1_v8) (broadcastInDim S1x1x1 ![2] bcast_S1_S1x1x1_2) : HloOp τ sig (Elt F)) = unary main_call1_c_1 main_call1_v8 ((broadcastInDim S1x1x1 ![2] bcast_S1_S1x1x1_2) : (⟨S1, .i32⟩ : BufTy).Contents (Elt F) → (⟨S1x1x1, .i32⟩ : BufTy).Contents (Elt F)) := rfl
private theorem e43 : (TRef.unary (TRef.of (T := ⟨S1x1x1, .i32⟩) main_call1_v8) (TRef.of (T := ⟨S16384x1x1, .i32⟩) main_call1_v9) (broadcastInDim S16384x1x1 ![0, 1, 2] bcast_S1x1x1_S16384x1x1_0_1_2) : HloOp τ sig (Elt F)) = unary main_call1_v8 main_call1_v9 ((broadcastInDim S16384x1x1 ![0, 1, 2] bcast_S1x1x1_S16384x1x1_0_1_2) : (⟨S1x1x1, .i32⟩ : BufTy).Contents (Elt F) → (⟨S16384x1x1, .i32⟩ : BufTy).Contents (Elt F)) := rfl
private theorem e44 : (TRef.binary (TRef.of (T := ⟨S16384x1x1, .i32⟩) main_call1_v5) (TRef.of (T := ⟨S16384x1x1, .i32⟩) main_call1_v9) (TRef.of (T := ⟨S16384x1x1, .i1⟩) main_call1_v10) (cmpi .sle) : HloOp τ sig (Elt F)) = binary main_call1_v5 main_call1_v9 main_call1_v10 ((cmpi .sle) : (⟨S16384x1x1, .i32⟩ : BufTy).Contents (Elt F) → (⟨S16384x1x1, .i32⟩ : BufTy).Contents (Elt F) → (⟨S16384x1x1, .i1⟩ : BufTy).Contents (Elt F)) := rfl
private theorem e45 : (TRef.binary (TRef.of (T := ⟨S16384x1x1, .i1⟩) main_call1_v7) (TRef.of (T := ⟨S16384x1x1, .i1⟩) main_call1_v10) (TRef.of (T := ⟨S16384x1x1, .i1⟩) main_call1_v11) andi : HloOp τ sig (Elt F)) = binary main_call1_v7 main_call1_v10 main_call1_v11 (andi : (⟨S16384x1x1, .i1⟩ : BufTy).Contents (Elt F) → (⟨S16384x1x1, .i1⟩ : BufTy).Contents (Elt F) → (⟨S16384x1x1, .i1⟩ : BufTy).Contents (Elt F)) := rfl
private theorem e46 : (TRef.nullary (TRef.of (T := ⟨S_, .i1⟩) main_call1_c_3) (constantI S_ 1 1#1) : HloOp τ sig (Elt F)) = nullary main_call1_c_3 ((constantI S_ 1 1#1) : (⟨S_, .i1⟩ : BufTy).Contents (Elt F)) := rfl
private theorem e47 : (TRef.binary (TRef.of (T := ⟨S16384x1x1, .i1⟩) main_call1_v11) (TRef.of (T := ⟨S_, .i1⟩) main_call1_c_3) (TRef.of (T := ⟨S16384x1, .i1⟩) main_call1_v12) (fun x v => Host.reduce IntOp.andi x v reducesTo_S16384x1x1_S16384x1_d2 h_S_) : HloOp τ sig (Elt F)) = binary main_call1_v11 main_call1_c_3 main_call1_v12 ((fun x v => Host.reduce IntOp.andi x v reducesTo_S16384x1x1_S16384x1_d2 h_S_) : (⟨S16384x1x1, .i1⟩ : BufTy).Contents (Elt F) → (⟨S_, .i1⟩ : BufTy).Contents (Elt F) → (⟨S16384x1, .i1⟩ : BufTy).Contents (Elt F)) := rfl
private theorem e48 : (TRef.binary (TRef.of (T := ⟨S16384x16384, .f32⟩) main_v11) (TRef.of (T := ⟨S16384x1x1, .i32⟩) main_call1_v5) (TRef.of (T := ⟨S16384x1, .f32⟩) main_call1_v13) (fun x i => Host.gather gather_S16384x16384_S16384x1x1_S16384x1_n_1_0_0_1_2_11 x i) : HloOp τ sig (Elt F)) = binary main_v11 main_call1_v5 main_call1_v13 ((fun x i => Host.gather gather_S16384x16384_S16384x1x1_S16384x1_n_1_0_0_1_2_11 x i) : (⟨S16384x16384, .f32⟩ : BufTy).Contents (Elt F) → (⟨S16384x1x1, .i32⟩ : BufTy).Contents (Elt F) → (⟨S16384x1, .f32⟩ : BufTy).Contents (Elt F)) := rfl
private theorem e49 : (TRef.nullary (TRef.of (T := ⟨S_, .f32⟩) main_call1_cst) (constant S_ .f32 0x7FC00000#32) : HloOp τ sig (Elt F)) = nullary main_call1_cst ((constant S_ .f32 0x7FC00000#32) : (⟨S_, .f32⟩ : BufTy).Contents (Elt F)) := rfl
private theorem e50 : (TRef.unary (TRef.of (T := ⟨S_, .f32⟩) main_call1_cst) (TRef.of (T := ⟨S16384x1, .f32⟩) main_call1_v14) (broadcastInDim S16384x1 ![] bcast_S_S16384x1) : HloOp τ sig (Elt F)) = unary main_call1_cst main_call1_v14 ((broadcastInDim S16384x1 ![] bcast_S_S16384x1) : (⟨S_, .f32⟩ : BufTy).Contents (Elt F) → (⟨S16384x1, .f32⟩ : BufTy).Contents (Elt F)) := rfl
private theorem e51 : (TRef.ternary (TRef.of (T := ⟨S16384x1, .i1⟩) main_call1_v12) (TRef.of (T := ⟨S16384x1, .f32⟩) main_call1_v13) (TRef.of (T := ⟨S16384x1, .f32⟩) main_call1_v14) (TRef.of (T := ⟨S16384x1, .f32⟩) main_v14) select : HloOp τ sig (Elt F)) = ternary main_call1_v12 main_call1_v13 main_call1_v14 main_v14 (select : (⟨S16384x1, .i1⟩ : BufTy).Contents (Elt F) → (⟨S16384x1, .f32⟩ : BufTy).Contents (Elt F) → (⟨S16384x1, .f32⟩ : BufTy).Contents (Elt F) → (⟨S16384x1, .f32⟩ : BufTy).Contents (Elt F)) := rfl

theorem opsT_eq : (opsT : List (HloOp τ sig (Elt F))) = ops := by
  unfold opsT ops
  rw [e13, e14, e15, e16, e17, e18, e19, e20, e21, e22, e23, e24, e25, e26, e27, e30, e31, e32, e33, e34, e35, e36, e37, e38, e39, e40, e41, e42, e43, e44, e45, e46, e47, e48, e49, e50, e51]

theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., binary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., binary_bufs_sub .., nullary_bufs_sub .., binary_bufs_sub .., unary_bufs_sub ..⟩

set_option maxRecDepth 16384 in
set_option maxHeartbeats 2000000 in
/-- On every device, for any float values, from any memory with zero counters: every weakly fair execution of
    @main terminates with the result at the stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = Cert.ReferenceIdeal.ReadP.val_main_v18 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v18).trans (by after_results_simp; rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.HandRun

end
-- ==== Proof.RefValue.lean ====
/-
  The reference program's result at the extended reals is the contrastive loss in its two-pass spelling.

  Read one operation at a time, the reference computes, for every row p of the 16384 x 16384 score matrix
  s p col = sum_k q (p, k) * x1 (col, k) with q = x0 / 1 - log x2: the row maximum M p; the shifted row s p col - M p;
  inside the log-softmax the shifted row's own maximum Z p (folded from -inf and joined with -inf once more), the
  difference (s p col - M p) - Z p, the sum of its exponentials from 0 and the logarithm of that sum; then the diagonal
  entry of the log-softmax, picked by a gather along the columns at the index iota; and minus the mean of the 16384
  picked values. The gather's start index at row p is the 32-bit word of p, which is non-negative and at most 16383: the
  index normalisation (add 16384 to a negative index) leaves it alone, the in-bounds mask is all ones so the NaN fill is
  never selected, and the clamp into [0, 16383] is the identity, so the element read is (p, p).
-/
import proofs.«137579_j91285234909639_2_alg».proof.Proof.RefReadP
import proofs.«137579_j91285234909639_2_alg».proof.Proof.LossSpec
import Idealize.ShloMosaic.Lib.Affine
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.LossSpec

/-! ## General facts -/

/-- The word of -inf denotes the bottom of the extended reals. -/
theorem negInf_eq : Ideal.ofBits .f32 0xFF800000#32 = (⊥ : EReal) := by simp [Ideal.ofBits, Ideal.ieee]

/-- Row p with column k put back on the reduced axis is the index (p, k). -/
theorem lift_row (h : S16384x16384.Reduces [1] S16384) (p : Fin 16384) (k : Fin (S16384x16384.size 1)) :
    h.lift (ix1 p) k = ix2 p (⟨k.val, k.isLt⟩ : Fin 16384) := by
  funext c; apply Fin.ext
  fin_cases c <;> rfl

/-- A maximum-reduce of a matrix along its columns, from -inf, is at row p the folded maximum of the row. -/
theorem reduce_max_row (y : FVec Ideal S16384x16384 .f32) (init : FVec Ideal S_ .f32) (h' : S16384x16384.ReducesTo [1] S16384)
    (hu : 0 < S_.numel) (hinit : init (Shape.Idx.first hu) = (⊥ : EReal)) (p : Fin 16384) :
    Host.reduce (FloatOps.maximumf (F := Ideal) (φ := .f32)) y init h' hu (ix1 p)
      = Lse.foldMax (fun col : Fin 16384 => y (ix2 p col)) := by
  have h : S16384x16384.Reduces [1] S16384 := by decide
  rw [Host.reduce_eq_fold_single (FloatOps.maximumf (F := Ideal) (φ := .f32)) y init h' h hu, hinit]
  have hf : (y ∘ h.lift (ix1 p)) = fun col : Fin 16384 => y (ix2 p col) :=
    funext fun k => congrArg y (lift_row h p k)
  rw [hf]
  rfl

/-- A left fold by and over one-bit words that are all 1, from 1, is 1. -/
theorem foldl_andi_ones {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi (1#1 : BitVec 1) 1#1 = 1#1 from by decide]
    exact ih

/-- An and-reduce, from 1, of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-! ## The 32-bit word of a row number -/

theorem toNat_row (p : ℕ) (hp : p < 16384) : (BitVec.ofNat 32 p).toNat = p := by
  rw [BitVec.toNat_ofNat]; exact Nat.mod_eq_of_lt (by omega)

theorem toInt_row (p : ℕ) (hp : p < 16384) : (BitVec.ofNat 32 p).toInt = (p : Int) := by
  rw [BitVec.toInt_eq_toNat_of_lt (by rw [toNat_row p hp]; omega), toNat_row p hp]

/-- It is not negative ... -/
theorem slt_zero (p : ℕ) (hp : p < 16384) : IntOp.cmpi .slt (BitVec.ofNat 32 p) 0#32 = 0#1 :=
  eq_zero_of_ne_one fun h => by
    have h1 := IntOp.cmpi_slt.mp h
    rw [toInt_row p hp, show (0#32 : BitVec 32).toInt = 0 from by decide] at h1
    omega

theorem sge_zero (p : ℕ) (hp : p < 16384) : IntOp.cmpi .sge (BitVec.ofNat 32 p) 0#32 = 1#1 :=
  IntOp.cmpi_sge.mpr (by rw [toInt_row p hp, show (0#32 : BitVec 32).toInt = 0 from by decide]; omega)

/-- ... and at most the last column. -/
theorem sle_last (p : ℕ) (hp : p < 16384) : IntOp.cmpi .sle (BitVec.ofNat 32 p) 16383#32 = 1#1 :=
  IntOp.cmpi_sle.mpr (by rw [toInt_row p hp, show (16383#32 : BitVec 32).toInt = 16383 from by decide]; omega)

/-! ## The gather along the columns at the row number reads the diagonal -/

/-- With start index the word of p at row p, the gather reads its operand at (p, p): the batching axis gives the row,
    the start index, read signed and clamped into [0, 16383], gives the column. -/
theorem gather_diag {α : Type} (x : S16384x16384.Idx → α) (idx : IVec S16384x1x1 32) (p : Fin 16384)
    (hidx : idx (ix3 p (0 : Fin 1) (0 : Fin 1)) = BitVec.ofNat 32 p.val) :
    Host.gather gather_S16384x16384_S16384x1x1_S16384x1_n_1_0_0_1_2_11 x idx (ix2 p (0 : Fin 1)) = x (ix2 p p) := by
  unfold Host.gather
  refine congrArg x (funext fun a => Fin.ext ?_)
  show gather_S16384x16384_S16384x1x1_S16384x1_n_1_0_0_1_2_11.start (ix2 p (0 : Fin 1)) idx a
      + gather_S16384x16384_S16384x1x1_S16384x1_n_1_0_0_1_2_11.batchCoord (ix2 p (0 : Fin 1)) a
      + gather_S16384x16384_S16384x1x1_S16384x1_n_1_0_0_1_2_11.offCoord (ix2 p (0 : Fin 1)) a = (ix2 p p a).val
  fin_cases a
  ·
    rw [GatherDims.offCoord_eq_zero _ _ _ (by decide)]
    unfold GatherDims.start GatherDims.batchCoord
    rw [dif_neg (by decide), dif_pos (by decide), Nat.zero_add, Nat.add_zero]
    rfl
  ·
    rw [GatherDims.offCoord_eq_zero _ _ _ (by decide), GatherDims.batchCoord_eq_zero _ _ _ (by decide)]
    unfold GatherDims.start
    rw [dif_pos (by decide)]
    have hsi : gather_S16384x16384_S16384x1x1_S16384x1_n_1_0_0_1_2_11.siIdx (ix2 p (0 : Fin 1))
        ⟨List.idxOf (⟨1, by decide⟩ : Fin S16384x16384.rank) gather_S16384x16384_S16384x1x1_S16384x1_n_1_0_0_1_2_11.startIndexMap,
          List.idxOf_lt_length_iff.2 (by decide)⟩ = ix3 p (0 : Fin 1) (0 : Fin 1) := by
      funext b; refine Fin.ext ?_
      match b with
      | ⟨0, _⟩ => rfl
      | ⟨1, _⟩ => rfl
      | ⟨2, _⟩ => rfl
    rw [hsi, hidx, toInt_row p.val p.isLt]
    show min (p.val : Int).toNat (16384 - 1) + 0 + 0 = p.val
    rw [Int.toNat_natCast]
    have := p.isLt
    omega

/-! ## The stages of the reference, row by row -/

section Stages

variable (x0 x1 : (⟨S16384x64, .f32⟩ : BufTy).Contents (Elt Ideal)) (x2 : (⟨S64, .f32⟩ : BufTy).Contents (Elt Ideal))

/-- The query: the logits over the temperature word minus the log noise probabilities. -/
theorem v5_eq : val_main_v5 (F := Ideal) x0 x2 = queryDiv x0 x2 := by
  funext i
  rw [val_main_v5_apply, val_main_v1_apply, val_main_v0_apply, val_main_cst_apply, val_main_v4_apply, val_main_v3_apply,
    val_main_v2_apply]
  have hi : idx_main_v3 (idx_main_v4 i) = ix1 (i 1) := funext fun a => by match a with | ⟨0, _⟩ => rfl
  rw [hi]
  rfl

/-- The score matrix at (p, col) is the dot product of query row p and target row col. -/
theorem v6_at (p col : Fin 16384) :
    val_main_v6 (F := Ideal) x0 x1 x2 (ix2 p col) = score (queryDiv x0 x2) x1 p col := by
  rw [val_main_v6_apply, v5_eq]
  unfold score
  refine Finset.sum_congr rfl fun k _ => ?_
  have hl : lidx_main_v6 (ix2 p col) k = ix2 p k := funext fun a => by match a with | ⟨0, _⟩ => rfl | ⟨1, _⟩ => rfl
  have hr : ridx_main_v6 (ix2 p col) k = ix2 col k := funext fun a => by match a with | ⟨0, _⟩ => rfl | ⟨1, _⟩ => rfl
  rw [hl, hr]

/-- The row maximum. -/
theorem v7_at (p : Fin 16384) :
    val_main_v7 (F := Ideal) x0 x1 x2 (ix1 p) = Lse.foldMax (fun col : Fin 16384 => score (queryDiv x0 x2) x1 p col) := by
  unfold val_main_v7
  rw [reduce_max_row _ _ _ _ negInf_eq p]
  exact congrArg Lse.foldMax (funext fun col => v6_at x0 x1 x2 p col)

/-- The row shifted by its maximum. -/
theorem v10_at (p col : Fin 16384) :
    val_main_v10 (F := Ideal) x0 x1 x2 (ix2 p col)
      = score (queryDiv x0 x2) x1 p col - Lse.foldMax (fun col : Fin 16384 => score (queryDiv x0 x2) x1 p col) := by
  rw [val_main_v10_apply, val_main_v9_apply, val_main_v8_apply]
  have hi : idx_main_v8 (idx_main_v9 (ix2 p col)) = ix1 p := funext fun a => by match a with | ⟨0, _⟩ => rfl
  rw [hi, v6_at, v7_at]
  rfl

/-- The shifted row's own maximum, folded from -inf ... -/
theorem c0v0_at (p : Fin 16384) :
    val_main_call0_v0 (F := Ideal) x0 x1 x2 (ix1 p)
      = Lse.foldMax (fun col : Fin 16384 => score (queryDiv x0 x2) x1 p col
          - Lse.foldMax (fun col : Fin 16384 => score (queryDiv x0 x2) x1 p col)) := by
  unfold val_main_call0_v0
  rw [reduce_max_row _ _ _ _ negInf_eq p]
  exact congrArg Lse.foldMax (funext fun col => v10_at x0 x1 x2 p col)

/-- ... and joined with -inf once more. -/
theorem c0v2_at (p : Fin 16384) :
    val_main_call0_v2 (F := Ideal) x0 x1 x2 (ix1 p)
      = max ⊥ (Lse.foldMax (fun col : Fin 16384 => score (queryDiv x0 x2) x1 p col
          - Lse.foldMax (fun col : Fin 16384 => score (queryDiv x0 x2) x1 p col))) := by
  rw [val_main_call0_v2_apply, val_main_call0_v1_apply, val_main_call0_cst_0_apply, c0v0_at]
  show max (Ideal.ofBits .f32 0xFF800000#32) _ = _
  rw [negInf_eq]

/-- The row shifted twice. -/
theorem c0v5_at (p col : Fin 16384) :
    val_main_call0_v5 (F := Ideal) x0 x1 x2 (ix2 p col)
      = (score (queryDiv x0 x2) x1 p col - Lse.foldMax (fun col : Fin 16384 => score (queryDiv x0 x2) x1 p col))
        - max ⊥ (Lse.foldMax (fun col : Fin 16384 => score (queryDiv x0 x2) x1 p col
          - Lse.foldMax (fun col : Fin 16384 => score (queryDiv x0 x2) x1 p col))) := by
  rw [val_main_call0_v5_apply, val_main_call0_v4_apply, val_main_call0_v3_apply]
  have hi : idx_main_call0_v3 (idx_main_call0_v4 (ix2 p col)) = ix1 p := funext fun a => by match a with | ⟨0, _⟩ => rfl
  rw [hi, v10_at, c0v2_at]
  rfl

/-- The sum of the exponentials of the twice shifted row, from 0. -/
theorem c0v7_at (p : Fin 16384) :
    val_main_call0_v7 (F := Ideal) x0 x1 x2 (ix1 p)
      = 0 + ∑ k : Fin 16384, Ideal.exp ((score (queryDiv x0 x2) x1 p k
          - Lse.foldMax (fun col : Fin 16384 => score (queryDiv x0 x2) x1 p col))
        - max ⊥ (Lse.foldMax (fun col : Fin 16384 => score (queryDiv x0 x2) x1 p col
          - Lse.foldMax (fun col : Fin 16384 => score (queryDiv x0 x2) x1 p col)))) := by
  rw [val_main_call0_v7_apply, val_main_call0_cst_1_apply]
  show Ideal.ofBits .f32 0x00000000#32 + _ = _
  rw [Ideal.ofBits_zero_f32]
  refine congrArg (0 + ·) (Finset.sum_congr rfl fun k _ => ?_)
  have hi : idx_main_call0_v7 (ix1 p) k = ix2 p k := funext fun a => by match a with | ⟨0, _⟩ => rfl | ⟨1, _⟩ => rfl
  rw [hi, val_main_call0_v6_apply, c0v5_at]
  rfl

/-- The log-softmax of the shifted row, at the diagonal: the two-pass value of row p. -/
theorem v11_diag (p : Fin 16384) :
    val_main_v11 (F := Ideal) x0 x1 x2 (ix2 p p)
      = Lse.twoPass (fun col : Fin 16384 => score (queryDiv x0 x2) x1 p col) (score (queryDiv x0 x2) x1 p p) := by
  rw [val_main_v11_apply, val_main_call0_v10_apply, val_main_call0_v9_apply, val_main_call0_v8_apply]
  have hi : idx_main_call0_v8 (idx_main_call0_v10 (ix2 p p)) = ix1 p := funext fun a => by match a with | ⟨0, _⟩ => rfl
  rw [hi, c0v5_at, c0v7_at]
  simp only [Ideal.subf_def, Ideal.hostUnary_log_def, Lse.twoPass]

/-! ### The index side: iota, its normalisation and the in-bounds mask -/

theorem v13_at (j : S16384x1.Idx) : val_main_v13 (F := Ideal) j = BitVec.ofNat 32 (j 0).val := by
  rw [val_main_v13_apply, val_main_v12_apply]

/-- A non-negative index is left alone by "add the extent if negative". -/
theorem c1v4_at (j : S16384x1.Idx) : val_main_call1_v4 (F := Ideal) j = BitVec.ofNat 32 (j 0).val := by
  rw [val_main_call1_v4_apply, val_main_call1_v1_apply, val_main_call1_v0_apply, val_main_call1_c_apply, v13_at,
    slt_zero _ (show (j 0).val < 16384 from (j 0).isLt), select_zero]

theorem c1v5_at (i : S16384x1x1.Idx) : val_main_call1_v5 (F := Ideal) i = BitVec.ofNat 32 (i 0).val := by
  rw [val_main_call1_v5_apply, c1v4_at]
  have h1 : (i 1).val < 1 := (i 1).isLt
  have h2 : (i 2).val < 1 := (i 2).isLt
  show BitVec.ofNat 32 ((((i 0).val * 1 + (i 1).val) * 1 + (i 2).val) / 1) = _
  congr 1
  omega

/-- Every start index lies in [0, 16383]: the in-bounds mask is all ones before ... -/
theorem c1v11_at (i : S16384x1x1.Idx) : val_main_call1_v11 (F := Ideal) i = 1#1 := by
  rw [val_main_call1_v11_apply, val_main_call1_v7_apply, val_main_call1_v10_apply, val_main_call1_v6_apply,
    val_main_call1_c_2_apply, val_main_call1_v9_apply, val_main_call1_v8_apply, val_main_call1_c_1_apply, c1v5_at,
    sge_zero _ (show (i 0).val < 16384 from (i 0).isLt), sle_last _ (show (i 0).val < 16384 from (i 0).isLt)]
  decide

/-- ... and after its reduction over the index vector's axis. -/
theorem c1v12_at (j : S16384x1.Idx) : val_main_call1_v12 (F := Ideal) j = 1#1 := by
  unfold val_main_call1_v12
  exact reduce_andi_ones _ _ _ _ c1v11_at rfl j

/-- The gathered column at row p is the log-softmax's diagonal entry. -/
theorem c1v13_at (p : Fin 16384) :
    val_main_call1_v13 (F := Ideal) x0 x1 x2 (ix2 p (0 : Fin 1)) = val_main_v11 (F := Ideal) x0 x1 x2 (ix2 p p) := by
  unfold val_main_call1_v13
  exact gather_diag _ _ p (c1v5_at _)

/-- THE ROW: the picked value of row p is its two-pass value. -/
theorem v15_at (p : Fin 16384) :
    val_main_v15 (F := Ideal) x0 x1 x2 (ix1 p)
      = Lse.twoPass (fun col : Fin 16384 => score (queryDiv x0 x2) x1 p col) (score (queryDiv x0 x2) x1 p p) := by
  rw [val_main_v15_apply]
  have hj : idx_main_v15 (ix1 p) = ix2 p (0 : Fin 1) := funext fun a => by
    match a with
    | ⟨0, _⟩ => exact Fin.ext (Nat.div_one _)
    | ⟨1, _⟩ => rfl
  rw [hj, val_main_v14_apply, c1v12_at, select_one, c1v13_at, v11_diag]

end Stages

/-! ## The loss -/

/-- The rank-1 indices of the 16384 rows are the row numbers. -/
def rowEquiv : Fin 16384 ≃ S16384.Idx where
  toFun p := ix1 p
  invFun j := j 0
  left_inv _ := rfl
  right_inv j := (eq_ix1 j).symm

theorem ref_value (x0 x1 : (⟨Cert.ReferenceIdeal.S16384x64, .f32⟩ : BufTy).Contents (Elt Ideal)) (x2 : (⟨Cert.ReferenceIdeal.S64, .f32⟩ : BufTy).Contents (Elt Ideal)) :
    Cert.ReferenceIdeal.ReadP.val_main_v18 (F := Ideal) x0 x1 x2 = fun _ => Cert.LossSpec.lossTwoPass x0 x1 x2 := by
  funext i
  rw [val_main_v18_apply, val_main_v17_apply, val_main_v16_apply, val_main_cst_1_apply, val_main_cst_2_apply]
  have hsum : ∑ j : S16384.Idx, val_main_v15 (F := Ideal) x0 x1 x2 j
      = ∑ p : Fin 16384, Lse.twoPass (fun col : Fin 16384 => score (queryDiv x0 x2) x1 p col) (score (queryDiv x0 x2) x1 p p) :=
    (Fintype.sum_equiv rowEquiv _ _ fun p => (v15_at x0 x1 x2 p).symm).symm
  rw [hsum]
  rfl

end Cert.ReferenceIdeal.RefValue

end
-- ==== Proof.lean ====
/-
  A contrastive loss with a noise correction, computed two ways, is one number on the extended reals.

  Both programs take logits [16384, 64], targets [16384, 64] and noise probabilities [64], form the query rows
  `logits / 1 - log noise`, score every query row against every target row by their dot product, take row `p`'s label
  to be column `p`, and return minus the mean over the rows of `score p p - logsumexp_col (score p col)`.

  The reference materialises the 16384 x 16384 score matrix, subtracts each row's maximum, applies a log-softmax (which
  subtracts the shifted row's maximum again, takes the log of the row's sum of exponentials) and gathers the diagonal.
  The kernel never forms the matrix: over a 16 x 16 grid of 1024 x 1024 score tiles it keeps, per row, a running
  maximum and a running sum of exponentials relative to it, rescaling the sum whenever the maximum grows, picks the
  row's own score on the diagonal tile, and after the last column tile writes `score p p - (max + log sum)`.
  On a row of REAL scores the two are equal: the streamed maximum is the row's maximum `M`, the streamed sum is
  `sum_col exp (score p col - M)`, the shifted row's maximum is 0. The scores are real when the logits and targets are
  finite and the noise probabilities are finite and positive, which is what the precondition says (the reference's
  `log noise` needs the positivity; with a zero noise probability the two programs end at different infinities).

  The kernel's idealization rewrites nothing, so `preserves` is trivial; the frames of the two kernel programs are the
  generated frame certificates, the reference's is its run with the result dropped.
-/
import proofs.«137579_j91285234909639_2_alg».proof.Defs
import proofs.«137579_j91285234909639_2_alg».proof.Proof.Gen.Kernel
import proofs.«137579_j91285234909639_2_alg».proof.Proof.Gen.Kernel.Skeleton
import proofs.«137579_j91285234909639_2_alg».proof.Proof.Gen.Kernel.Launch
import proofs.«137579_j91285234909639_2_alg».proof.Proof.Gen.Kernel.Points
import proofs.«137579_j91285234909639_2_alg».proof.Proof.Gen.Kernel.Frame
import proofs.«137579_j91285234909639_2_alg».proof.Proof.Gen.KernelIdeal
import proofs.«137579_j91285234909639_2_alg».proof.Proof.Gen.KernelIdeal.Skeleton
import proofs.«137579_j91285234909639_2_alg».proof.Proof.Gen.KernelIdeal.Launch
import proofs.«137579_j91285234909639_2_alg».proof.Proof.Gen.KernelIdeal.Points
import proofs.«137579_j91285234909639_2_alg».proof.Proof.Gen.KernelIdeal.Frame
import proofs.«137579_j91285234909639_2_alg».proof.Proof.Gen.ReferenceIdeal
import proofs.«137579_j91285234909639_2_alg».proof.Proof.Gen.Pre_finite_inputs
import proofs.«137579_j91285234909639_2_alg».proof.Proof.KernelValue
import proofs.«137579_j91285234909639_2_alg».proof.Proof.PreDecode
import proofs.«137579_j91285234909639_2_alg».proof.Proof.Bridge
import proofs.«137579_j91285234909639_2_alg».proof.Proof.RefRun
import proofs.«137579_j91285234909639_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote nothing. -/
theorem preserves : Cert.preserves_Kernel_KernelIdeal := trivial

/-- On the extended reals the kernel program ends at the streamed loss of its arguments and the reference at the
    two-pass loss of arguments that agree; under the precondition the arguments are reals with positive noise
    probabilities, and the two losses are equal. -/
theorem algebraic : Cert.algebraic_KernelIdeal_ReferenceIdeal := by
  intro m ρ m' ρ' hpre hagree
  refine ⟨fun c => fun _ => Cert.LossSpec.lossStreamed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.ref_value, (hagree c).1, (hagree c).2.1, (hagree c).2.2]
  obtain ⟨d0, d1, d2, dp⟩ := Cert.Pre_finite_inputs.Decode.decode _ _ _ (hpre c)
  funext _
  exact (Cert.LossSpec.lossStreamed_eq_lossTwoPass _ _ _ d0 d1 d2 dp).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
